-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128 .f32) (main_arg14 : FVec F S128x16 .f32) (main_arg15 : FVec F S16 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x16 .f32 := Host.absf main_arg14
  let main_cst_22 : FVec F S_ .f32 := constant S_ .f32 0x7F800000#32
  let main_v60 : FVec F S128x16 .f32 := broadcastInDim S128x16 ![] bcast_S_S128x16 main_cst_22
  let main_v61 : IVec S128x16 1 := cmpf .olt main_v59 main_v60
  let main_c_23 : IVec S_ 1 := constantI S_ 1 1#1
  let main_v62 : IVec S_ 1 := (fun x v => Host.reduce IntOp.andi x v reducesTo_S128x16_S_d0_1 h_S_) main_v61 main_c_23
  let main_v63 : IVec S_ 1 := andi main_v58 main_v62
  let main_v64 : FVec F S16 .f32 := Host.absf main_arg15
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_v63 main_v67

def fn_part2 {F : FTy → Type} [FloatOps F] (main_arg9 : FVec F S128 .f32) (main_arg10 : FVec F S128x128 .f32) (main_arg11 : FVec F S128 .f32) (main_arg12 : FVec F S128x128 .f32) (main_arg13 : FVec F S128 .f32) (main_arg14 : FVec F S128x16 .f32) (main_arg15 : FVec F S16 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x16 .f32) (main_arg15 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : IVec S800000 32) (main_arg1 : IVec S800000 32) (main_arg2 : FVec F S50000x128 .f32) (main_arg3 : FVec F S800000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) (main_arg14 : FVec F S128x16 .f32) (main_arg15 : FVec F S16 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S5000x128 : Shape := ⟨2, ![5000, 128]⟩
abbrev S1x128 : Shape := ⟨2, ![1, 128]⟩
abbrev S5000x1 : Shape := ⟨2, ![5000, 1]⟩
abbrev S800000x128 : Shape := ⟨2, ![800000, 128]⟩
abbrev S50000x16 : Shape := ⟨2, ![50000, 16]⟩
abbrev S5000x16 : Shape := ⟨2, ![5000, 16]⟩
abbrev S1x16 : Shape := ⟨2, ![1, 16]⟩

abbrev nBuf : Space → Nat
  | .hbm => 109
  | .vmem => 58
  | .smem => 0
  | _ => 0

abbrev bufTy : (tb : Table) → Fin (tcTables nBuf tb) → BufTy
  | .hbm, ⟨0, _⟩ => ⟨S800000, .i32⟩
  | .hbm, ⟨1, _⟩ => ⟨S800000, .i32⟩
  | .hbm, ⟨2, _⟩ => ⟨S50000x128, .f32⟩
  | .hbm, ⟨3, _⟩ => ⟨S800000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x16, .f32⟩
  | .hbm, ⟨15, _⟩ => ⟨S16, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S800000x1, .f32⟩
  | .hbm, ⟨67, _⟩ => ⟨S800000x128, .f32⟩
  | .hbm, ⟨68, _⟩ => ⟨S800000x128, .f32⟩
  | .hbm, ⟨69, _⟩ => ⟨S_, .f32⟩
  | .hbm, ⟨70, _⟩ => ⟨S50000x128, .f32⟩
  | .hbm, ⟨71, _⟩ => ⟨S800000x1, .i32⟩
  | .hbm, ⟨72, _⟩ => ⟨S50000x128, .f32⟩
  | .hbm, ⟨73, _⟩ => ⟨S50000x128, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x128, .f32⟩
  | .hbm, ⟨83, _⟩ => ⟨S800000x1, .f32⟩
  | .hbm, ⟨84, _⟩ => ⟨S800000x128, .f32⟩
  | .hbm, ⟨85, _⟩ => ⟨S800000x128, .f32⟩
  | .hbm, ⟨86, _⟩ => ⟨S_, .f32⟩
  | .hbm, ⟨87, _⟩ => ⟨S50000x128, .f32⟩
  | .hbm, ⟨88, _⟩ => ⟨S800000x1, .i32⟩
  | .hbm, ⟨89, _⟩ => ⟨S50000x128, .f32⟩
  | .hbm, ⟨90, _⟩ => ⟨S50000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S800000x1, .f32⟩
  | .hbm, ⟨101, _⟩ => ⟨S800000x128, .f32⟩
  | .hbm, ⟨102, _⟩ => ⟨S800000x128, .f32⟩
  | .hbm, ⟨103, _⟩ => ⟨S_, .f32⟩
  | .hbm, ⟨104, _⟩ => ⟨S50000x128, .f32⟩
  | .hbm, ⟨105, _⟩ => ⟨S800000x1, .i32⟩
  | .hbm, ⟨106, _⟩ => ⟨S50000x128, .f32⟩
  | .hbm, ⟨107, _⟩ => ⟨S50000x128, .f32⟩
  | .hbm, ⟨108, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x1, .f32⟩
  | .local _ .vmem, ⟨16, _⟩ => ⟨S5000x1, .f32⟩
  | .local _ .vmem, ⟨17, _⟩ => ⟨S128, .f32⟩
  | .local _ .vmem, ⟨18, _⟩ => ⟨S5000x1, .f32⟩
  | .local _ .vmem, ⟨19, _⟩ => ⟨S5000x1, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x1, .f32⟩
  | .local _ .vmem, ⟨26, _⟩ => ⟨S5000x1, .f32⟩
  | .local _ .vmem, ⟨27, _⟩ => ⟨S128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S128, .f32⟩
  | .local _ .vmem, ⟨38, _⟩ => ⟨S5000x1, .f32⟩
  | .local _ .vmem, ⟨39, _⟩ => ⟨S5000x1, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x1, .f32⟩
  | .local _ .vmem, ⟨46, _⟩ => ⟨S5000x1, .f32⟩
  | .local _ .vmem, ⟨47, _⟩ => ⟨S128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x16, .f32⟩
  | .local _ .vmem, ⟨55, _⟩ => ⟨S16, .f32⟩
  | .local _ .vmem, ⟨56, _⟩ => ⟨S5000x16, .f32⟩
  | .local _ .vmem, ⟨57, _⟩ => ⟨S5000x16, .f32⟩
  | _, _ => ⟨S800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_5 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_c_6 : Ref sig .tc := ⟨.hbm, 57, rfl⟩
abbrev main_v29 : Ref sig .tc := ⟨.hbm, 58, rfl⟩
abbrev main_v30 : Ref sig .tc := ⟨.hbm, 59, rfl⟩
abbrev main_c_7 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_8 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_c_9 : Ref sig .tc := ⟨.hbm, 74, rfl⟩
abbrev main_v43 : Ref sig .tc := ⟨.hbm, 75, rfl⟩
abbrev main_v44 : Ref sig .tc := ⟨.hbm, 76, rfl⟩
abbrev main_c_10 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_c_12 : Ref sig .tc := ⟨.hbm, 91, rfl⟩
abbrev main_v57 : Ref sig .tc := ⟨.hbm, 92, rfl⟩
abbrev main_v58 : Ref sig .tc := ⟨.hbm, 93, rfl⟩
abbrev main_c_13 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_14 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg5_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg0_1 : Ref sig .tc := ⟨.vmem, 34, rfl⟩
abbrev cc4_stg1_0 : Ref sig .tc := ⟨.vmem, 35, rfl⟩
abbrev cc4_stg1_1 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg3_1 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg5_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem5_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem3_0 : DmaSem sig := 38
abbrev cc4_sem3_1 : DmaSem sig := 39
abbrev cc4_sem4_0 : DmaSem sig := 40
abbrev cc4_sem5_0 : DmaSem sig := 41
abbrev cc4_sem5_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S5000x128_S5000x128 : S5000x128.ShapeCasts S5000x128
  inb_S128x16_S128x16_0_0 : ∀ a, (![0, 0] : Fin 2 → Nat) a + S128x16.size a ≤ S128x16.size a
  h_S128x16 : 0 < S128x16.numel
  inb_S16_S16_0 : ∀ a, (![0] : Fin 1 → Nat) a + S16.size a ≤ S16.size a
  h_S16 : 0 < S16.numel
  shapeCasts_S16_S1x16 : S16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .f32 = 32 ∨ (Rect.block (s := S50000x1) S5000x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S50000x1.size a
  hwx3_3 : ∀ i : grid3.Coords, EltTy.bits .f32 = 32 ∨ (Rect.block (s := S50000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x1.size a ≤ S50000x1.size a
  hwx4_3 : ∀ i : grid4.Coords, EltTy.bits .f32 = 32 ∨ (Rect.block (s := S50000x1) S5000x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S50000x128.size a
  hwx5_4 : ∀ i : grid5.Coords, EltTy.bits .f32 = 32 ∨ (Rect.block (s := S50000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x16.size a ≤ S128x16.size a
  hwx6_1 : ∀ i : grid6.Coords, EltTy.bits .f32 = 32 ∨ (Rect.block (s := S128x16) S128x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S16.size a ≤ S16.size a
  hwx6_2 : ∀ i : grid6.Coords, EltTy.bits .f32 = 32 ∨ (Rect.block (s := S16) S16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S50000x16.size a
  hwx6_3 : ∀ i : grid6.Coords, EltTy.bits .f32 = 32 ∨ (Rect.block (s := S50000x16) S5000x16.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg13) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v27) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v10) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v28) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v10) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_arg8) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v42) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v10) S5000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v56) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v69) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v12) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg11) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v13) S5000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v70) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg14) S128x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg15) S16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v71) S5000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S800000 : Shape := ⟨1, ![800000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S50000x1 : Shape := ⟨2, ![50000, 1]⟩
abbrev S800000x128 : Shape := ⟨2, ![800000, 128]⟩
abbrev S50000x16 : Shape := ⟨2, ![50000, 16]⟩
abbrev S1x16 : Shape := ⟨2, ![1, 16]⟩

abbrev nBuf : Space → Nat
  | .hbm => 161
  | .vmem => 0
  | .smem => 0
  | _ => 0

abbrev hbmTy0_0 (i : Nat) : BufTy := match i % 128 with
  | 0 => ⟨S800000, .i32⟩
  | 1 => ⟨S800000, .i32⟩
  | 2 => ⟨S50000x128, .f32⟩
  | 3 => ⟨S800000, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S128x16, .f32⟩
  | 15 => ⟨S16, .f32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S_, .f32⟩
  | 24 => ⟨S50000, .f32⟩
  | 25 => ⟨S50000, .f32⟩
  | 26 => ⟨S_, .f32⟩
  | 27 => ⟨S50000, .f32⟩
  | 28 => ⟨S800000x1, .i32⟩
  | 29 => ⟨S50000, .f32⟩
  | 30 => ⟨S_, .f32⟩
  | 31 => ⟨S_, .f32⟩
  | 32 => ⟨S50000, .f32⟩
  | 33 => ⟨S50000, .f32⟩
  | 34 => ⟨S50000, .f32⟩
  | 35 => ⟨S50000, .f32⟩
  | 36 => ⟨S50000x128, .f32⟩
  | 37 => ⟨S1x128, .f32⟩
  | 38 => ⟨S50000x128, .f32⟩
  | 39 => ⟨S50000x128, .f32⟩
  | 40 => ⟨S50000x1, .f32⟩
  | 41 => ⟨S50000x128, .f32⟩
  | 42 => ⟨S50000x128, .f32⟩
  | 43 => ⟨S50000x128, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x128, .f32⟩
  | 53 => ⟨S800000x1, .f32⟩
  | 54 => ⟨S800000x128, .f32⟩
  | 55 => ⟨S800000x128, .f32⟩
  | 56 => ⟨S_, .f32⟩
  | 57 => ⟨S50000x128, .f32⟩
  | 58 => ⟨S800000x1, .i32⟩
  | 59 => ⟨S50000x128, .f32⟩
  | 60 => ⟨S50000x1, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x1, .f32⟩
  | 70 => ⟨S50000x128, .f32⟩
  | 71 => ⟨S50000x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S800000x1, .f32⟩
  | 83 => ⟨S800000x128, .f32⟩
  | 84 => ⟨S800000x128, .f32⟩
  | 85 => ⟨S_, .f32⟩
  | 86 => ⟨S50000x128, .f32⟩
  | 87 => ⟨S800000x1, .i32⟩
  | 88 => ⟨S50000x128, .f32⟩
  | 89 => ⟨S50000x1, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x1, .f32⟩
  | 99 => ⟨S50000x128, .f32⟩
  | 100 => ⟨S50000x128, .f32⟩
  | 101 => ⟨S50000x128, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x1, .f32⟩
  | 112 => ⟨S800000x128, .f32⟩
  | 113 => ⟨S800000x128, .f32⟩
  | 114 => ⟨S_, .f32⟩
  | 115 => ⟨S50000x128, .f32⟩
  | 116 => ⟨S800000x1, .i32⟩
  | 117 => ⟨S50000x128, .f32⟩
  | 118 => ⟨S50000x1, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x1, .f32⟩
  | _ => ⟨S800000, .i32⟩

abbrev hbmTy0_1 (i : Nat) : BufTy := match i % 128 with
  | 0 => ⟨S50000x128, .f32⟩
  | 1 => ⟨S50000x128, .f32⟩
  | 2 => ⟨S50000x128, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x128, .f32⟩
  | 12 => ⟨S800000x1, .f32⟩
  | 13 => ⟨S800000x128, .f32⟩
  | 14 => ⟨S800000x128, .f32⟩
  | 15 => ⟨S_, .f32⟩
  | 16 => ⟨S50000x128, .f32⟩
  | 17 => ⟨S800000x1, .i32⟩
  | 18 => ⟨S50000x128, .f32⟩
  | 19 => ⟨S50000x1, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S50000x16, .f32⟩
  | 30 => ⟨S1x16, .f32⟩
  | 31 => ⟨S50000x16, .f32⟩
  | 32 => ⟨S50000x16, .f32⟩
  | _ => ⟨S800000, .i32⟩

abbrev hbmTy (i : Nat) : BufTy := match i / 128 with
  | 0 => hbmTy0_0 i
  | 1 => hbmTy0_1 i
  | _ => ⟨S800000, .i32⟩

abbrev bufTy : (tb : Table) → Fin (tcTables nBuf tb) → BufTy
  | .hbm, ⟨i, _⟩ => hbmTy i
  | _, _ => ⟨S800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v4 : Ref sig .tc := ⟨.hbm, 25, rfl⟩
abbrev main_cst_2 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst_3 : Ref sig .tc := ⟨.hbm, 30, rfl⟩
abbrev main_call1_v0 : Ref sig .tc := ⟨.hbm, 31, rfl⟩
abbrev main_call1_v1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_5 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call2_cst : Ref sig .tc := ⟨.hbm, 66, rfl⟩
abbrev main_call2_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_v43 : Ref sig .tc := ⟨.hbm, 74, rfl⟩
abbrev main_v44 : Ref sig .tc := ⟨.hbm, 75, rfl⟩
abbrev main_c_7 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_8 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_call3_cst : Ref sig .tc := ⟨.hbm, 95, rfl⟩
abbrev main_call3_v0 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_9 : Ref sig .tc := ⟨.hbm, 102, rfl⟩
abbrev main_v67 : Ref sig .tc := ⟨.hbm, 103, rfl⟩
abbrev main_v68 : Ref sig .tc := ⟨.hbm, 104, rfl⟩
abbrev main_c_10 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_11 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call4_cst : Ref sig .tc := ⟨.hbm, 124, rfl⟩
abbrev main_call4_v0 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_12 : Ref sig .tc := ⟨.hbm, 131, rfl⟩
abbrev main_v91 : Ref sig .tc := ⟨.hbm, 132, rfl⟩
abbrev main_v92 : Ref sig .tc := ⟨.hbm, 133, rfl⟩
abbrev main_c_13 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_cst_14 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_call5_cst : Ref sig .tc := ⟨.hbm, 154, rfl⟩
abbrev main_call5_v0 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x16_S50000x16_1_0_0_1_n_n_wf : DotDims.WF S50000x128 S128x16 S50000x16 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.KernelRun.lean ====
/-
  The tiled program's run with its result named: every weakly fair execution ends with the result buffer at the
  contents the last of the sixteen segments leaves there, and the sixteen argument arrays as launched.
-/
import proofs.«156565_j45311904973176_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the sixteen segments, read at the result buffer and at the arguments: the final state holds, at
    every buffer that outlives the regions, what the fold through the segments leaves there. -/
theorem run_result : θ_run defs (onTc (τ := τ) (main (F := F))) ⟨m, fun _ => 0, ρ⟩ (fun r => ∀ c : Dev nD,
      r.2.mem ((c.tc : Thread nD τ).loc main_v71) = W16 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v71 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c)⟩)

end Cert.KernelIdeal.Whole

end
-- ==== Proof.LibHostProduct.lean ====
/-
  The host's matrix product and two of its broadcasts, read at an index, at the ideal values.

  For `A : [m, k]` and `B : [k, n]`, the host's product contracting the second axis of `A` with the first of `B` has at
  `(a, b)` the sum over `c` of `A (a, c) · B (c, b)`: it has no accumulator, so this is the whole entry.  An `[a, 1]`
  column laid along the columns of an `[a, b]` array has at `(p, c)` the column's entry `p`, and a vector of length `n`
  laid as a `[1, n]` row has at `(0, q)` its entry `q`.
-/
import Idealize.ShloMosaic.Lib.Pipeline.Value
import Idealize.ShloMosaic.Lib.ValueIdx
import Idealize.ShloMosaic.PureOps.Ideal.Laws

noncomputable section

namespace Cert.HostProduct

open Idealize.ShloMosaic Idealize.ShloMosaic.ValueIdx

/-- The host's `A · B`, read at `(a, b)`: the sum over the shared coordinate of the products. -/
theorem dotGeneral_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims _ _ _) prec A B (ix2 a b)
      = ∑ c : Fin k, A (ix2 a c) * B (ix2 c b) := by
  show FloatOps.dotGeneral _ prec _ A B (ix2 a b) = _
  rw [Ideal.dotGeneral_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

variable {α : Type}

/-- An `[a, 1]` column laid along the columns of an `[a, b]` array: entry `(p, c)` is the column's entry `p`. -/
theorem broadcastInDim_col_apply {a b : ℕ} (h : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) ?_
  intro ax
  match ax with
  | ⟨0, _⟩ =>
    show p.val = if a = 1 then 0 else p.val
    split
    · have := p.isLt; omega
    · rfl
  | ⟨1, _⟩ =>
    show (0 : ℕ) = if (1 : ℕ) = 1 then 0 else _
    simp

/-- A vector laid as a one-row matrix by the host: entry `(0, q)` is the vector's entry `q`. -/
theorem broadcastInDim_row_apply {n : ℕ} (h : (⟨1, ![n]⟩ : Shape).BroadcastsInDim ⟨2, ![1, n]⟩ ![1])
    (v : (⟨1, ![n]⟩ : Shape).Idx → α) (q : Fin n) :
    broadcastInDim ⟨2, ![1, n]⟩ ![1] h v (ix2 (0 : Fin 1) q) = v (ix1 q) := by
  refine broadcastInDim_apply ![1] h v (ix2 (0 : Fin 1) q) (ix1 q) ?_
  intro ax
  match ax with
  | ⟨0, _⟩ =>
    show q.val = if n = 1 then 0 else q.val
    split
    · have := q.isLt; omega
    · rfl

end Cert.HostProduct

end
-- ==== Proof.Spec.lean ====
/-
  The network both programs compute, as whole-array functions at the ideal values, and each dense stage read at an index.

  A graph of `N = 50000` nodes and `E = 800000` weighted edges `src e → dst e`.  With `deg⁻¹ᐟ²` the inverse square
  root of a node's degree clipped below at one (`invSqrtDeg`: out-degrees from `src`, in-degrees from `dst`), one
  graph convolution of `x : [N, 128]` is

    `h = (x · s_out) W`,  `agg v = ∑_{e : dst e = v} h (src e) · ew e`,  `agg · s_in + b`,

  with `s_out`, `s_in` the two columns of inverse square roots laid along the rows.  Four of them are chained, with
  `max (·, 0)` after the first three; the fourth is added to the residual branch `x Wr + br` before its `max (·, 0)`,
  and the result is projected by `Wo`, `bo` to sixteen classes.

  The dense stages are cut here exactly where the tiled program cuts them: `prescale` (the first product),
  `finishPrescale` (finish one convolution and start the next), `finishCombine` (finish the last and join the
  residual), `affine` and `project` (a product plus a bias row).  The sparse stage `aggregate` (gather along `src`,
  weight, sum into `dst`) is the same host computation in both programs and is never opened.
-/
import proofs.«156565_j45311904973176_1_alg».proof.Proof.Gen.ReferenceIdeal
import proofs.«156565_j45311904973176_1_alg».proof.Proof.LibHostProduct
import Idealize.ShloMosaic.Lib.KernelVsHost
import Idealize.ShloMosaic.Lib.IdealHost

noncomputable section

namespace Cert.Spec

open Idealize.ShloMosaic Idealize.ShloMosaic.ValueIdx Cert.ReferenceIdeal Cert.ReferenceIdeal.Facts₀

/-- `[N, 128]` arrays of extended reals. -/
abbrev Mat := FVec Ideal S50000x128 .f32
/-- `[N, 1]` columns. -/
abbrev Col := FVec Ideal S50000x1 .f32
/-- `[128, 128]` weights. -/
abbrev Wt := FVec Ideal S128x128 .f32
/-- Bias vectors of length 128. -/
abbrev Bias := FVec Ideal S128 .f32
/-- Edge index vectors. -/
abbrev EdgeIdx := IVec S800000 32
/-- Edge weights. -/
abbrev EdgeW := FVec Ideal S800000 .f32

/-- The inverse square root of each node's degree (the number of edges whose end `idx` is the node), clipped below at one. -/
def invSqrtDeg (idx : EdgeIdx) : FVec Ideal S50000 .f32 :=
  Host.rsqrt (maximumf (broadcastInDim S50000 ![] bcast_S_S50000 (id (constant S_ .f32 0x3F800000#32))) (Host.scatterAdd scatter_S50000_S800000x1_S800000_n_0_0_1 (broadcastInDim S50000 ![] bcast_S_S50000 (constant S_ .f32 0x00000000#32)) (broadcastInDim S800000x1 ![0] bcast_S800000_S800000x1_0 idx) (broadcastInDim S800000 ![] bcast_S_S800000 (constant S_ .f32 0x3F800000#32))))

/-- A vector over the nodes as an `[N, 1]` column. -/
def col (v : FVec Ideal S50000 .f32) : Col :=
  broadcastInDim S50000x1 ![0] bcast_S50000_S50000x1_0 v

/-- A column laid along all 128 columns. -/
def spread (s : Col) : Mat := broadcastInDim S50000x128 ![0, 1] bcast_S50000x1_S50000x128_0_1 s

/-- A bias vector laid along every row. -/
def biasRows (b : Bias) : Mat :=
  broadcastInDim S50000x128 ![0, 1] bcast_S1x128_S50000x128_0_1 (broadcastInDim S1x128 ![1] bcast_S128_S1x128_1 b)

/-- The zero array. -/
def zeros : Mat := broadcastInDim S50000x128 ![] bcast_S_S50000x128 (constant S_ .f32 0x00000000#32)

/-- The sparse stage: row `dst e` of the result collects row `src e` of `h` (a negative `src e` counted from the end)
    times `ew e`, over all edges `e`, from zero. -/
def aggregate (h : Mat) (src dst : EdgeIdx) (ew : EdgeW) : Mat :=
  Host.scatterAdd scatter_S50000x128_S800000x1_S800000x128_1_0_0_1 zeros (broadcastInDim S800000x1 ![0] bcast_S800000_S800000x1_0 dst) (mulf (Host.gather gather_S50000x128_S800000x1_S800000x128_1_0_n_n_0_1_1128 h (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))) (broadcastInDim S800000x128 ![0, 1] bcast_S800000x1_S800000x128_0_1 (broadcastInDim S800000x1 ![0] bcast_S800000_S800000x1_0 ew)))

/-- `x W + b`. -/
def affine (x : Mat) (W : Wt) (b : Bias) : Mat :=
  addf (Host.dotGeneral dot_S50000x128_S128x128_S50000x128_1_0_0_1_n_n none x W) (biasRows b)

/-- `(x · s) W`. -/
def prescale (x : Mat) (s : Col) (W : Wt) : Mat :=
  Host.dotGeneral dot_S50000x128_S128x128_S50000x128_1_0_0_1_n_n none (mulf x (spread s)) W

/-- `(max (agg · s_in + b, 0) · s_out) W`. -/
def finishPrescale (agg : Mat) (sIn : Col) (b : Bias) (sOut : Col) (W : Wt) : Mat :=
  Host.dotGeneral dot_S50000x128_S128x128_S50000x128_1_0_0_1_n_n none (mulf (maximumf (addf (mulf agg (spread sIn)) (biasRows b)) zeros) (spread sOut)) W

/-- `max ((agg · s_in + b) + res, 0)`. -/
def finishCombine (agg : Mat) (sIn : Col) (b : Bias) (res : Mat) : Mat :=
  maximumf (addf (addf (mulf agg (spread sIn)) (biasRows b)) res) zeros

/-- `x Wo + bo`, sixteen columns. -/
def project (x : Mat) (Wo : FVec Ideal S128x16 .f32) (bo : FVec Ideal S16 .f32) :
    FVec Ideal S50000x16 .f32 :=
  addf (Host.dotGeneral dot_S50000x128_S128x16_S50000x16_1_0_0_1_n_n none x Wo) (broadcastInDim S50000x16 ![0, 1] bcast_S1x16_S50000x16_0_1 (broadcastInDim S1x16 ![1] bcast_S16_S1x16_1 bo))

/-- The whole network, of the sixteen argument arrays in order. -/
def net (src dst : EdgeIdx) (x : Mat) (ew : EdgeW) (W1 : Wt) (b1 : Bias) (W2 : Wt) (b2 : Bias) (W3 : Wt) (b3 : Bias)
    (W4 : Wt) (b4 : Bias) (Wr : Wt) (br : Bias) (Wo : FVec Ideal S128x16 .f32)
    (bo : FVec Ideal S16 .f32) : FVec Ideal S50000x16 .f32 :=
  let sOut := col (invSqrtDeg src)
  let sIn := col (invSqrtDeg dst)
  let h1 := prescale x sOut W1
  let h2 := finishPrescale (aggregate h1 src dst ew) sIn b1 sOut W2
  let h3 := finishPrescale (aggregate h2 src dst ew) sIn b2 sOut W3
  let h4 := finishPrescale (aggregate h3 src dst ew) sIn b3 sOut W4
  project (finishCombine (aggregate h4 src dst ew) sIn b4 (affine x Wr br)) Wo bo

/-! ## The dense stages at an index -/

theorem spread_apply (s : Col) (p : Fin 50000) (q : Fin 128) : spread s (ix2 p q) = s (ix2 p (0 : Fin 1)) :=
  Cert.HostProduct.broadcastInDim_col_apply bcast_S50000x1_S50000x128_0_1 s p q

theorem biasRows_apply (b : Bias) (p : Fin 50000) (q : Fin 128) : biasRows b (ix2 p q) = b (ix1 q) :=
  (broadcastInDim_oneRow_apply bcast_S1x128_S50000x128_0_1 _ p q).trans
    (Cert.HostProduct.broadcastInDim_row_apply bcast_S128_S1x128_1 b q)

theorem zeros_apply (i : S50000x128.Idx) : zeros i = Ideal.ofBits .f32 0x00000000#32 := rfl

theorem prescale_apply (x : Mat) (s : Col) (W : Wt) (p : Fin 50000) (q : Fin 128) :
    prescale x s W (ix2 p q) = ∑ k : Fin 128, (x (ix2 p k) * s (ix2 p (0 : Fin 1))) * W (ix2 k q) := by
  unfold prescale
  refine (Cert.HostProduct.dotGeneral_nn_apply dot_S50000x128_S128x128_S50000x128_1_0_0_1_n_n_wf none _ W p q).trans ?_
  refine Finset.sum_congr rfl fun k _ => ?_
  show (x (ix2 p k) * spread s (ix2 p k)) * _ = _
  rw [spread_apply]

theorem affine_apply (x : Mat) (W : Wt) (b : Bias) (p : Fin 50000) (q : Fin 128) :
    affine x W b (ix2 p q) = (∑ k : Fin 128, x (ix2 p k) * W (ix2 k q)) + b (ix1 q) := by
  unfold affine
  show Host.dotGeneral _ none x W (ix2 p q) + biasRows b (ix2 p q) = _
  rw [biasRows_apply]
  exact congrArg (· + b (ix1 q)) (Cert.HostProduct.dotGeneral_nn_apply dot_S50000x128_S128x128_S50000x128_1_0_0_1_n_n_wf none x W p q)

theorem finishPrescale_apply (agg : Mat) (sIn : Col) (b : Bias) (sOut : Col) (W : Wt) (p : Fin 50000) (q : Fin 128) :
    finishPrescale agg sIn b sOut W (ix2 p q)
      = ∑ k : Fin 128, (max (agg (ix2 p k) * sIn (ix2 p (0 : Fin 1)) + b (ix1 k)) (Ideal.ofBits .f32 0x00000000#32)
          * sOut (ix2 p (0 : Fin 1))) * W (ix2 k q) := by
  unfold finishPrescale
  refine (Cert.HostProduct.dotGeneral_nn_apply dot_S50000x128_S128x128_S50000x128_1_0_0_1_n_n_wf none _ W p q).trans ?_
  refine Finset.sum_congr rfl fun k _ => ?_
  show (max (agg (ix2 p k) * spread sIn (ix2 p k) + biasRows b (ix2 p k)) (zeros (ix2 p k)) * spread sOut (ix2 p k)) * _ = _
  rw [spread_apply, spread_apply, biasRows_apply, zeros_apply]

theorem finishCombine_apply (agg : Mat) (sIn : Col) (b : Bias) (res : Mat) (p : Fin 50000) (q : Fin 128) :
    finishCombine agg sIn b res (ix2 p q)
      = max ((agg (ix2 p q) * sIn (ix2 p (0 : Fin 1)) + b (ix1 q)) + res (ix2 p q)) (Ideal.ofBits .f32 0x00000000#32) := by
  unfold finishCombine
  show max ((agg (ix2 p q) * spread sIn (ix2 p q) + biasRows b (ix2 p q)) + res (ix2 p q)) (zeros (ix2 p q)) = _
  rw [spread_apply, biasRows_apply, zeros_apply]

theorem project_apply (x : Mat) (Wo : FVec Ideal S128x16 .f32) (bo : FVec Ideal S16 .f32)
    (p : Fin 50000) (q : Fin 16) :
    project x Wo bo (ix2 p q) = (∑ k : Fin 128, x (ix2 p k) * Wo (ix2 k q)) + bo (ix1 q) := by
  unfold project
  show Host.dotGeneral _ none x Wo (ix2 p q) + broadcastInDim S50000x16 ![0, 1] bcast_S1x16_S50000x16_0_1 (broadcastInDim S1x16 ![1] bcast_S16_S1x16_1 bo) (ix2 p q) = _
  rw [(broadcastInDim_oneRow_apply bcast_S1x16_S50000x16_0_1 _ p q).trans
    (Cert.HostProduct.broadcastInDim_row_apply bcast_S16_S1x16_1 bo q)]
  exact congrArg (· + bo (ix1 q)) (Cert.HostProduct.dotGeneral_nn_apply dot_S50000x128_S128x16_S50000x16_1_0_0_1_n_n_wf none x Wo p q)

end Cert.Spec

end
-- ==== Proof.SpecDeg.lean ====
/-
  The inverse square roots of the clipped degrees, cut where the host computes them: the count of edges per node, the
  clip below at one, the inverse square root laid as a column.
-/
import proofs.«156565_j45311904973176_1_alg».proof.Proof.Spec

noncomputable section

namespace Cert.Spec

open Idealize.ShloMosaic Cert.ReferenceIdeal Cert.ReferenceIdeal.Facts₀

/-- The scalar one. -/
def one : FVec Ideal S_ .f32 := constant S_ .f32 0x3F800000#32

/-- A one for every edge. -/
def onesE : FVec Ideal S800000 .f32 := broadcastInDim S800000 ![] bcast_S_S800000 (constant S_ .f32 0x3F800000#32)

/-- The sum, per node, of `w e` over the edges `e` whose end `idx e` is the node: with `w = 1` the node's degree. -/
def degreeWith (idx : EdgeIdx) (w : FVec Ideal S800000 .f32) : FVec Ideal S50000 .f32 :=
  Host.scatterAdd scatter_S50000_S800000x1_S800000_n_0_0_1 (broadcastInDim S50000 ![] bcast_S_S50000 (constant S_ .f32 0x00000000#32)) (broadcastInDim S800000x1 ![0] bcast_S800000_S800000x1_0 idx) w

/-- `max (o, d)` per node, `o` a scalar. -/
def clipBelow (d : FVec Ideal S50000 .f32) (o : FVec Ideal S_ .f32) : FVec Ideal S50000 .f32 :=
  maximumf (broadcastInDim S50000 ![] bcast_S_S50000 (id o)) d

/-- The inverse square roots as a column. -/
def invSqrtCol (d : FVec Ideal S50000 .f32) : Col := col (Host.rsqrt d)

/-- The column of inverse square roots of the clipped degrees, in these three cuts. -/
theorem invSqrtDeg_cuts (idx : EdgeIdx) : invSqrtCol (clipBelow (degreeWith idx onesE) one) = col (invSqrtDeg idx) := rfl

end Cert.Spec

end
-- ==== Proof.HostSteps.lean ====
/-
  The host stretches between the dense stages, read at the buffers the stages use.

  Before the first stage the host computes the two columns of inverse square roots of the clipped degrees; between two
  stages it runs the sparse stage (gather along `src`, weight, sum into `dst`) on the stage's result.  Every other
  buffer a later stage reads is left as it was.  Each fact is stated over any contents `X` of the buffers at the start
  of the stretch.
-/
import proofs.«156565_j45311904973176_1_alg».proof.Proof.Gen.KernelIdeal.Launch
import proofs.«156565_j45311904973176_1_alg».proof.Proof.SpecDeg
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen

/-- A buffer that no operation of a stretch writes keeps its contents. -/
macro "keep_through" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide))))

variable (X : Valuation τ sig (Elt Ideal))

/-! ## Before the first stage: five short stretches -/

theorem s0_v3 : StableHlo.after hostOps0 X (Proc.devRef .tc main_v3) = Cert.Spec.degreeWith (X (Proc.devRef .tc main_arg0)) Cert.Spec.onesE := by
  refine Eq.trans (b := ?mid) ?h1 ?h2
  case h1 =>
    dsimp only [hostOps0]
    after_results
  case h2 => exact rfl

theorem s0_v0 : StableHlo.after hostOps0 X (Proc.devRef .tc main_v0) = Cert.Spec.onesE := by
  refine Eq.trans (b := ?mid) ?h1 ?h2
  case h1 =>
    dsimp only [hostOps0]
    after_results
  case h2 => exact rfl

theorem s0_cst1 : StableHlo.after hostOps0 X (Proc.devRef .tc main_cst_1) = Cert.Spec.one := by
  refine Eq.trans (b := ?mid) ?h1 ?h2
  case h1 =>
    dsimp only [hostOps0]
    after_results
  case h2 => exact rfl

theorem s1_v4 : StableHlo.after hostOps0_1 X (Proc.devRef .tc main_v4) = Cert.Spec.clipBelow (X (Proc.devRef .tc main_v3)) (X (Proc.devRef .tc main_cst_1)) := by
  refine Eq.trans (b := ?mid) ?h1 ?h2
  case h1 =>
    dsimp only [hostOps0_1]
    after_results
  case h2 => exact rfl

theorem s1_v0 : StableHlo.after hostOps0_1 X (Proc.devRef .tc main_v0) = X (Proc.devRef .tc main_v0) := by keep_through hostOps0_1
theorem s0_arg1 : StableHlo.after hostOps0 X (Proc.devRef .tc main_arg1) = X (Proc.devRef .tc main_arg1) := by keep_through hostOps0
theorem s1_arg1 : StableHlo.after hostOps0_1 X (Proc.devRef .tc main_arg1) = X (Proc.devRef .tc main_arg1) := by keep_through hostOps0_1
theorem s2_v7 : StableHlo.after hostOps0_2 X (Proc.devRef .tc main_v7) = Cert.Spec.degreeWith (X (Proc.devRef .tc main_arg1)) (X (Proc.devRef .tc main_v0)) := by
  refine Eq.trans (b := ?mid) ?h1 ?h2
  case h1 =>
    dsimp only [hostOps0_2]
    after_results
  case h2 => exact rfl

theorem s2_cst3 : StableHlo.after hostOps0_2 X (Proc.devRef .tc main_cst_3) = Cert.Spec.one := by
  refine Eq.trans (b := ?mid) ?h1 ?h2
  case h1 =>
    dsimp only [hostOps0_2]
    after_results
  case h2 => exact rfl

theorem s2_v4 : StableHlo.after hostOps0_2 X (Proc.devRef .tc main_v4) = X (Proc.devRef .tc main_v4) := by keep_through hostOps0_2
theorem s3_v8 : StableHlo.after hostOps0_3 X (Proc.devRef .tc main_v8) = Cert.Spec.clipBelow (X (Proc.devRef .tc main_v7)) (X (Proc.devRef .tc main_cst_3)) := by
  refine Eq.trans (b := ?mid) ?h1 ?h2
  case h1 =>
    dsimp only [hostOps0_3]
    after_results
  case h2 => exact rfl

theorem s3_v4 : StableHlo.after hostOps0_3 X (Proc.devRef .tc main_v4) = X (Proc.devRef .tc main_v4) := by keep_through hostOps0_3
theorem s4_v10 : StableHlo.after hostOps0_4 X (Proc.devRef .tc main_v10) = Cert.Spec.invSqrtCol (X (Proc.devRef .tc main_v4)) := by
  refine Eq.trans (b := ?mid) ?h1 ?h2
  case h1 =>
    dsimp only [hostOps0_4]
    after_results
  case h2 => exact rfl

theorem s4_v12 : StableHlo.after hostOps0_4 X (Proc.devRef .tc main_v12) = Cert.Spec.invSqrtCol (X (Proc.devRef .tc main_v8)) := by
  refine Eq.trans (b := ?mid) ?h1 ?h2
  case h1 =>
    dsimp only [hostOps0_4]
    after_results
  case h2 => exact rfl

/-- The column of inverse square roots of the clipped out-degrees. -/
theorem pre_v10 : StableHlo.after hostOps0_4 (StableHlo.after hostOps0_3 (StableHlo.after hostOps0_2 (StableHlo.after hostOps0_1 (StableHlo.after hostOps0 X)))) (Proc.devRef .tc main_v10)
    = Cert.Spec.col (Cert.Spec.invSqrtDeg (X (Proc.devRef .tc main_arg0))) := by
  rw [s4_v10, s3_v4, s2_v4, s1_v4, s0_v3, s0_cst1]
  exact Cert.Spec.invSqrtDeg_cuts _

/-- The column of inverse square roots of the clipped in-degrees. -/
theorem pre_v12 : StableHlo.after hostOps0_4 (StableHlo.after hostOps0_3 (StableHlo.after hostOps0_2 (StableHlo.after hostOps0_1 (StableHlo.after hostOps0 X)))) (Proc.devRef .tc main_v12)
    = Cert.Spec.col (Cert.Spec.invSqrtDeg (X (Proc.devRef .tc main_arg1))) := by
  rw [s4_v12, s3_v8, s2_v7, s2_cst3, s1_arg1, s0_arg1, s1_v0, s0_v0]
  exact Cert.Spec.invSqrtDeg_cuts _

theorem pre_main_arg0 : StableHlo.after hostOps0_4 (StableHlo.after hostOps0_3 (StableHlo.after hostOps0_2 (StableHlo.after hostOps0_1 (StableHlo.after hostOps0 X)))) (Proc.devRef .tc main_arg0) = X (Proc.devRef .tc main_arg0) :=
  calc StableHlo.after hostOps0_4 (StableHlo.after hostOps0_3 (StableHlo.after hostOps0_2 (StableHlo.after hostOps0_1 (StableHlo.after hostOps0 X)))) (Proc.devRef .tc main_arg0)
    _ = (StableHlo.after hostOps0_3 (StableHlo.after hostOps0_2 (StableHlo.after hostOps0_1 (StableHlo.after hostOps0 X)))) (Proc.devRef .tc main_arg0) := by keep_through hostOps0_4
    _ = (StableHlo.after hostOps0_2 (StableHlo.after hostOps0_1 (StableHlo.after hostOps0 X))) (Proc.devRef .tc main_arg0) := by keep_through hostOps0_3
    _ = (StableHlo.after hostOps0_1 (StableHlo.after hostOps0 X)) (Proc.devRef .tc main_arg0) := by keep_through hostOps0_2
    _ = (StableHlo.after hostOps0 X) (Proc.devRef .tc main_arg0) := by keep_through hostOps0_1
    _ = X (Proc.devRef .tc main_arg0) := by keep_through hostOps0

theorem pre_main_arg1 : StableHlo.after hostOps0_4 (StableHlo.after hostOps0_3 (StableHlo.after hostOps0_2 (StableHlo.after hostOps0_1 (StableHlo.after hostOps0 X)))) (Proc.devRef .tc main_arg1) = X (Proc.devRef .tc main_arg1) :=
  calc StableHlo.after hostOps0_4 (StableHlo.after hostOps0_3 (StableHlo.after hostOps0_2 (StableHlo.after hostOps0_1 (StableHlo.after hostOps0 X)))) (Proc.devRef .tc main_arg1)
    _ = (StableHlo.after hostOps0_3 (StableHlo.after hostOps0_2 (StableHlo.after hostOps0_1 (StableHlo.after hostOps0 X)))) (Proc.devRef .tc main_arg1) := by keep_through hostOps0_4
    _ = (StableHlo.after hostOps0_2 (StableHlo.after hostOps0_1 (StableHlo.after hostOps0 X))) (Proc.devRef .tc main_arg1) := by keep_through hostOps0_3
    _ = (StableHlo.after hostOps0_1 (StableHlo.after hostOps0 X)) (Proc.devRef .tc main_arg1) := by keep_through hostOps0_2
    _ = (StableHlo.after hostOps0 X) (Proc.devRef .tc main_arg1) := by keep_through hostOps0_1
    _ = X (Proc.devRef .tc main_arg1) := by keep_through hostOps0

theorem pre_main_arg2 : StableHlo.after hostOps0_4 (StableHlo.after hostOps0_3 (StableHlo.after hostOps0_2 (StableHlo.after hostOps0_1 (StableHlo.after hostOps0 X)))) (Proc.devRef .tc main_arg2) = X (Proc.devRef .tc main_arg2) :=
  calc StableHlo.after hostOps0_4 (StableHlo.after hostOps0_3 (StableHlo.after hostOps0_2 (StableHlo.after hostOps0_1 (StableHlo.after hostOps0 X)))) (Proc.devRef .tc main_arg2)
    _ = (StableHlo.after hostOps0_3 (StableHlo.after hostOps0_2 (StableHlo.after hostOps0_1 (StableHlo.after hostOps0 X)))) (Proc.devRef .tc main_arg2) := by keep_through hostOps0_4
    _ = (StableHlo.after hostOps0_2 (StableHlo.after hostOps0_1 (StableHlo.after hostOps0 X))) (Proc.devRef .tc main_arg2) := by keep_through hostOps0_3
    _ = (StableHlo.after hostOps0_1 (StableHlo.after hostOps0 X)) (Proc.devRef .tc main_arg2) := by keep_through hostOps0_2
    _ = (StableHlo.after hostOps0 X) (Proc.devRef .tc main_arg2) := by keep_through hostOps0_1
    _ = X (Proc.devRef .tc main_arg2) := by keep_through hostOps0

theorem pre_main_arg3 : StableHlo.after hostOps0_4 (StableHlo.after hostOps0_3 (StableHlo.after hostOps0_2 (StableHlo.after hostOps0_1 (StableHlo.after hostOps0 X)))) (Proc.devRef .tc main_arg3) = X (Proc.devRef .tc main_arg3) :=
  calc StableHlo.after hostOps0_4 (StableHlo.after hostOps0_3 (StableHlo.after hostOps0_2 (StableHlo.after hostOps0_1 (StableHlo.after hostOps0 X)))) (Proc.devRef .tc main_arg3)
    _ = (StableHlo.after hostOps0_3 (StableHlo.after hostOps0_2 (StableHlo.after hostOps0_1 (StableHlo.after hostOps0 X)))) (Proc.devRef .tc main_arg3) := by keep_through hostOps0_4
    _ = (StableHlo.after hostOps0_2 (StableHlo.after hostOps0_1 (StableHlo.after hostOps0 X))) (Proc.devRef .tc main_arg3) := by keep_through hostOps0_3
    _ = (StableHlo.after hostOps0_1 (StableHlo.after hostOps0 X)) (Proc.devRef .tc main_arg3) := by keep_through hostOps0_2
    _ = (StableHlo.after hostOps0 X) (Proc.devRef .tc main_arg3) := by keep_through hostOps0_1
    _ = X (Proc.devRef .tc main_arg3) := by keep_through hostOps0

theorem pre_main_arg4 : StableHlo.after hostOps0_4 (StableHlo.after hostOps0_3 (StableHlo.after hostOps0_2 (StableHlo.after hostOps0_1 (StableHlo.after hostOps0 X)))) (Proc.devRef .tc main_arg4) = X (Proc.devRef .tc main_arg4) :=
  calc StableHlo.after hostOps0_4 (StableHlo.after hostOps0_3 (StableHlo.after hostOps0_2 (StableHlo.after hostOps0_1 (StableHlo.after hostOps0 X)))) (Proc.devRef .tc main_arg4)
    _ = (StableHlo.after hostOps0_3 (StableHlo.after hostOps0_2 (StableHlo.after hostOps0_1 (StableHlo.after hostOps0 X)))) (Proc.devRef .tc main_arg4) := by keep_through hostOps0_4
    _ = (StableHlo.after hostOps0_2 (StableHlo.after hostOps0_1 (StableHlo.after hostOps0 X))) (Proc.devRef .tc main_arg4) := by keep_through hostOps0_3
    _ = (StableHlo.after hostOps0_1 (StableHlo.after hostOps0 X)) (Proc.devRef .tc main_arg4) := by keep_through hostOps0_2
    _ = (StableHlo.after hostOps0 X) (Proc.devRef .tc main_arg4) := by keep_through hostOps0_1
    _ = X (Proc.devRef .tc main_arg4) := by keep_through hostOps0

theorem pre_main_arg5 : StableHlo.after hostOps0_4 (StableHlo.after hostOps0_3 (StableHlo.after hostOps0_2 (StableHlo.after hostOps0_1 (StableHlo.after hostOps0 X)))) (Proc.devRef .tc main_arg5) = X (Proc.devRef .tc main_arg5) :=
  calc StableHlo.after hostOps0_4 (StableHlo.after hostOps0_3 (StableHlo.after hostOps0_2 (StableHlo.after hostOps0_1 (StableHlo.after hostOps0 X)))) (Proc.devRef .tc main_arg5)
    _ = (StableHlo.after hostOps0_3 (StableHlo.after hostOps0_2 (StableHlo.after hostOps0_1 (StableHlo.after hostOps0 X)))) (Proc.devRef .tc main_arg5) := by keep_through hostOps0_4
    _ = (StableHlo.after hostOps0_2 (StableHlo.after hostOps0_1 (StableHlo.after hostOps0 X))) (Proc.devRef .tc main_arg5) := by keep_through hostOps0_3
    _ = (StableHlo.after hostOps0_1 (StableHlo.after hostOps0 X)) (Proc.devRef .tc main_arg5) := by keep_through hostOps0_2
    _ = (StableHlo.after hostOps0 X) (Proc.devRef .tc main_arg5) := by keep_through hostOps0_1
    _ = X (Proc.devRef .tc main_arg5) := by keep_through hostOps0

theorem pre_main_arg6 : StableHlo.after hostOps0_4 (StableHlo.after hostOps0_3 (StableHlo.after hostOps0_2 (StableHlo.after hostOps0_1 (StableHlo.after hostOps0 X)))) (Proc.devRef .tc main_arg6) = X (Proc.devRef .tc main_arg6) :=
  calc StableHlo.after hostOps0_4 (StableHlo.after hostOps0_3 (StableHlo.after hostOps0_2 (StableHlo.after hostOps0_1 (StableHlo.after hostOps0 X)))) (Proc.devRef .tc main_arg6)
    _ = (StableHlo.after hostOps0_3 (StableHlo.after hostOps0_2 (StableHlo.after hostOps0_1 (StableHlo.after hostOps0 X)))) (Proc.devRef .tc main_arg6) := by keep_through hostOps0_4
    _ = (StableHlo.after hostOps0_2 (StableHlo.after hostOps0_1 (StableHlo.after hostOps0 X))) (Proc.devRef .tc main_arg6) := by keep_through hostOps0_3
    _ = (StableHlo.after hostOps0_1 (StableHlo.after hostOps0 X)) (Proc.devRef .tc main_arg6) := by keep_through hostOps0_2
    _ = (StableHlo.after hostOps0 X) (Proc.devRef .tc main_arg6) := by keep_through hostOps0_1
    _ = X (Proc.devRef .tc main_arg6) := by keep_through hostOps0

theorem pre_main_arg7 : StableHlo.after hostOps0_4 (StableHlo.after hostOps0_3 (StableHlo.after hostOps0_2 (StableHlo.after hostOps0_1 (StableHlo.after hostOps0 X)))) (Proc.devRef .tc main_arg7) = X (Proc.devRef .tc main_arg7) :=
  calc StableHlo.after hostOps0_4 (StableHlo.after hostOps0_3 (StableHlo.after hostOps0_2 (StableHlo.after hostOps0_1 (StableHlo.after hostOps0 X)))) (Proc.devRef .tc main_arg7)
    _ = (StableHlo.after hostOps0_3 (StableHlo.after hostOps0_2 (StableHlo.after hostOps0_1 (StableHlo.after hostOps0 X)))) (Proc.devRef .tc main_arg7) := by keep_through hostOps0_4
    _ = (StableHlo.after hostOps0_2 (StableHlo.after hostOps0_1 (StableHlo.after hostOps0 X))) (Proc.devRef .tc main_arg7) := by keep_through hostOps0_3
    _ = (StableHlo.after hostOps0_1 (StableHlo.after hostOps0 X)) (Proc.devRef .tc main_arg7) := by keep_through hostOps0_2
    _ = (StableHlo.after hostOps0 X) (Proc.devRef .tc main_arg7) := by keep_through hostOps0_1
    _ = X (Proc.devRef .tc main_arg7) := by keep_through hostOps0

theorem pre_main_arg8 : StableHlo.after hostOps0_4 (StableHlo.after hostOps0_3 (StableHlo.after hostOps0_2 (StableHlo.after hostOps0_1 (StableHlo.after hostOps0 X)))) (Proc.devRef .tc main_arg8) = X (Proc.devRef .tc main_arg8) :=
  calc StableHlo.after hostOps0_4 (StableHlo.after hostOps0_3 (StableHlo.after hostOps0_2 (StableHlo.after hostOps0_1 (StableHlo.after hostOps0 X)))) (Proc.devRef .tc main_arg8)
    _ = (StableHlo.after hostOps0_3 (StableHlo.after hostOps0_2 (StableHlo.after hostOps0_1 (StableHlo.after hostOps0 X)))) (Proc.devRef .tc main_arg8) := by keep_through hostOps0_4
    _ = (StableHlo.after hostOps0_2 (StableHlo.after hostOps0_1 (StableHlo.after hostOps0 X))) (Proc.devRef .tc main_arg8) := by keep_through hostOps0_3
    _ = (StableHlo.after hostOps0_1 (StableHlo.after hostOps0 X)) (Proc.devRef .tc main_arg8) := by keep_through hostOps0_2
    _ = (StableHlo.after hostOps0 X) (Proc.devRef .tc main_arg8) := by keep_through hostOps0_1
    _ = X (Proc.devRef .tc main_arg8) := by keep_through hostOps0

theorem pre_main_arg9 : StableHlo.after hostOps0_4 (StableHlo.after hostOps0_3 (StableHlo.after hostOps0_2 (StableHlo.after hostOps0_1 (StableHlo.after hostOps0 X)))) (Proc.devRef .tc main_arg9) = X (Proc.devRef .tc main_arg9) :=
  calc StableHlo.after hostOps0_4 (StableHlo.after hostOps0_3 (StableHlo.after hostOps0_2 (StableHlo.after hostOps0_1 (StableHlo.after hostOps0 X)))) (Proc.devRef .tc main_arg9)
    _ = (StableHlo.after hostOps0_3 (StableHlo.after hostOps0_2 (StableHlo.after hostOps0_1 (StableHlo.after hostOps0 X)))) (Proc.devRef .tc main_arg9) := by keep_through hostOps0_4
    _ = (StableHlo.after hostOps0_2 (StableHlo.after hostOps0_1 (StableHlo.after hostOps0 X))) (Proc.devRef .tc main_arg9) := by keep_through hostOps0_3
    _ = (StableHlo.after hostOps0_1 (StableHlo.after hostOps0 X)) (Proc.devRef .tc main_arg9) := by keep_through hostOps0_2
    _ = (StableHlo.after hostOps0 X) (Proc.devRef .tc main_arg9) := by keep_through hostOps0_1
    _ = X (Proc.devRef .tc main_arg9) := by keep_through hostOps0

theorem pre_main_arg10 : StableHlo.after hostOps0_4 (StableHlo.after hostOps0_3 (StableHlo.after hostOps0_2 (StableHlo.after hostOps0_1 (StableHlo.after hostOps0 X)))) (Proc.devRef .tc main_arg10) = X (Proc.devRef .tc main_arg10) :=
  calc StableHlo.after hostOps0_4 (StableHlo.after hostOps0_3 (StableHlo.after hostOps0_2 (StableHlo.after hostOps0_1 (StableHlo.after hostOps0 X)))) (Proc.devRef .tc main_arg10)
    _ = (StableHlo.after hostOps0_3 (StableHlo.after hostOps0_2 (StableHlo.after hostOps0_1 (StableHlo.after hostOps0 X)))) (Proc.devRef .tc main_arg10) := by keep_through hostOps0_4
    _ = (StableHlo.after hostOps0_2 (StableHlo.after hostOps0_1 (StableHlo.after hostOps0 X))) (Proc.devRef .tc main_arg10) := by keep_through hostOps0_3
    _ = (StableHlo.after hostOps0_1 (StableHlo.after hostOps0 X)) (Proc.devRef .tc main_arg10) := by keep_through hostOps0_2
    _ = (StableHlo.after hostOps0 X) (Proc.devRef .tc main_arg10) := by keep_through hostOps0_1
    _ = X (Proc.devRef .tc main_arg10) := by keep_through hostOps0

theorem pre_main_arg11 : StableHlo.after hostOps0_4 (StableHlo.after hostOps0_3 (StableHlo.after hostOps0_2 (StableHlo.after hostOps0_1 (StableHlo.after hostOps0 X)))) (Proc.devRef .tc main_arg11) = X (Proc.devRef .tc main_arg11) :=
  calc StableHlo.after hostOps0_4 (StableHlo.after hostOps0_3 (StableHlo.after hostOps0_2 (StableHlo.after hostOps0_1 (StableHlo.after hostOps0 X)))) (Proc.devRef .tc main_arg11)
    _ = (StableHlo.after hostOps0_3 (StableHlo.after hostOps0_2 (StableHlo.after hostOps0_1 (StableHlo.after hostOps0 X)))) (Proc.devRef .tc main_arg11) := by keep_through hostOps0_4
    _ = (StableHlo.after hostOps0_2 (StableHlo.after hostOps0_1 (StableHlo.after hostOps0 X))) (Proc.devRef .tc main_arg11) := by keep_through hostOps0_3
    _ = (StableHlo.after hostOps0_1 (StableHlo.after hostOps0 X)) (Proc.devRef .tc main_arg11) := by keep_through hostOps0_2
    _ = (StableHlo.after hostOps0 X) (Proc.devRef .tc main_arg11) := by keep_through hostOps0_1
    _ = X (Proc.devRef .tc main_arg11) := by keep_through hostOps0

theorem pre_main_arg12 : StableHlo.after hostOps0_4 (StableHlo.after hostOps0_3 (StableHlo.after hostOps0_2 (StableHlo.after hostOps0_1 (StableHlo.after hostOps0 X)))) (Proc.devRef .tc main_arg12) = X (Proc.devRef .tc main_arg12) :=
  calc StableHlo.after hostOps0_4 (StableHlo.after hostOps0_3 (StableHlo.after hostOps0_2 (StableHlo.after hostOps0_1 (StableHlo.after hostOps0 X)))) (Proc.devRef .tc main_arg12)
    _ = (StableHlo.after hostOps0_3 (StableHlo.after hostOps0_2 (StableHlo.after hostOps0_1 (StableHlo.after hostOps0 X)))) (Proc.devRef .tc main_arg12) := by keep_through hostOps0_4
    _ = (StableHlo.after hostOps0_2 (StableHlo.after hostOps0_1 (StableHlo.after hostOps0 X))) (Proc.devRef .tc main_arg12) := by keep_through hostOps0_3
    _ = (StableHlo.after hostOps0_1 (StableHlo.after hostOps0 X)) (Proc.devRef .tc main_arg12) := by keep_through hostOps0_2
    _ = (StableHlo.after hostOps0 X) (Proc.devRef .tc main_arg12) := by keep_through hostOps0_1
    _ = X (Proc.devRef .tc main_arg12) := by keep_through hostOps0

theorem pre_main_arg13 : StableHlo.after hostOps0_4 (StableHlo.after hostOps0_3 (StableHlo.after hostOps0_2 (StableHlo.after hostOps0_1 (StableHlo.after hostOps0 X)))) (Proc.devRef .tc main_arg13) = X (Proc.devRef .tc main_arg13) :=
  calc StableHlo.after hostOps0_4 (StableHlo.after hostOps0_3 (StableHlo.after hostOps0_2 (StableHlo.after hostOps0_1 (StableHlo.after hostOps0 X)))) (Proc.devRef .tc main_arg13)
    _ = (StableHlo.after hostOps0_3 (StableHlo.after hostOps0_2 (StableHlo.after hostOps0_1 (StableHlo.after hostOps0 X)))) (Proc.devRef .tc main_arg13) := by keep_through hostOps0_4
    _ = (StableHlo.after hostOps0_2 (StableHlo.after hostOps0_1 (StableHlo.after hostOps0 X))) (Proc.devRef .tc main_arg13) := by keep_through hostOps0_3
    _ = (StableHlo.after hostOps0_1 (StableHlo.after hostOps0 X)) (Proc.devRef .tc main_arg13) := by keep_through hostOps0_2
    _ = (StableHlo.after hostOps0 X) (Proc.devRef .tc main_arg13) := by keep_through hostOps0_1
    _ = X (Proc.devRef .tc main_arg13) := by keep_through hostOps0

theorem pre_main_arg14 : StableHlo.after hostOps0_4 (StableHlo.after hostOps0_3 (StableHlo.after hostOps0_2 (StableHlo.after hostOps0_1 (StableHlo.after hostOps0 X)))) (Proc.devRef .tc main_arg14) = X (Proc.devRef .tc main_arg14) :=
  calc StableHlo.after hostOps0_4 (StableHlo.after hostOps0_3 (StableHlo.after hostOps0_2 (StableHlo.after hostOps0_1 (StableHlo.after hostOps0 X)))) (Proc.devRef .tc main_arg14)
    _ = (StableHlo.after hostOps0_3 (StableHlo.after hostOps0_2 (StableHlo.after hostOps0_1 (StableHlo.after hostOps0 X)))) (Proc.devRef .tc main_arg14) := by keep_through hostOps0_4
    _ = (StableHlo.after hostOps0_2 (StableHlo.after hostOps0_1 (StableHlo.after hostOps0 X))) (Proc.devRef .tc main_arg14) := by keep_through hostOps0_3
    _ = (StableHlo.after hostOps0_1 (StableHlo.after hostOps0 X)) (Proc.devRef .tc main_arg14) := by keep_through hostOps0_2
    _ = (StableHlo.after hostOps0 X) (Proc.devRef .tc main_arg14) := by keep_through hostOps0_1
    _ = X (Proc.devRef .tc main_arg14) := by keep_through hostOps0

theorem pre_main_arg15 : StableHlo.after hostOps0_4 (StableHlo.after hostOps0_3 (StableHlo.after hostOps0_2 (StableHlo.after hostOps0_1 (StableHlo.after hostOps0 X)))) (Proc.devRef .tc main_arg15) = X (Proc.devRef .tc main_arg15) :=
  calc StableHlo.after hostOps0_4 (StableHlo.after hostOps0_3 (StableHlo.after hostOps0_2 (StableHlo.after hostOps0_1 (StableHlo.after hostOps0 X)))) (Proc.devRef .tc main_arg15)
    _ = (StableHlo.after hostOps0_3 (StableHlo.after hostOps0_2 (StableHlo.after hostOps0_1 (StableHlo.after hostOps0 X)))) (Proc.devRef .tc main_arg15) := by keep_through hostOps0_4
    _ = (StableHlo.after hostOps0_2 (StableHlo.after hostOps0_1 (StableHlo.after hostOps0 X))) (Proc.devRef .tc main_arg15) := by keep_through hostOps0_3
    _ = (StableHlo.after hostOps0_1 (StableHlo.after hostOps0 X)) (Proc.devRef .tc main_arg15) := by keep_through hostOps0_2
    _ = (StableHlo.after hostOps0 X) (Proc.devRef .tc main_arg15) := by keep_through hostOps0_1
    _ = X (Proc.devRef .tc main_arg15) := by keep_through hostOps0

/-! ## The stretch `hostOps2` -/

/-- The sparse stage of the previous dense stage's result. -/
theorem hostOps2_agg : StableHlo.after hostOps2 X (Proc.devRef .tc main_v27) = Cert.Spec.aggregate (X (Proc.devRef .tc main_v14)) (X (Proc.devRef .tc main_arg0)) (X (Proc.devRef .tc main_arg1)) (X (Proc.devRef .tc main_arg3)) := by
  refine Eq.trans (b := ?mid) ?h1 ?h2
  case h1 =>
    dsimp only [hostOps2]
    after_results
  case h2 => exact rfl

theorem hostOps2_main_arg0 : StableHlo.after hostOps2 X (Proc.devRef .tc main_arg0) = X (Proc.devRef .tc main_arg0) := by keep_through hostOps2
theorem hostOps2_main_arg1 : StableHlo.after hostOps2 X (Proc.devRef .tc main_arg1) = X (Proc.devRef .tc main_arg1) := by keep_through hostOps2
theorem hostOps2_main_arg3 : StableHlo.after hostOps2 X (Proc.devRef .tc main_arg3) = X (Proc.devRef .tc main_arg3) := by keep_through hostOps2
theorem hostOps2_main_arg5 : StableHlo.after hostOps2 X (Proc.devRef .tc main_arg5) = X (Proc.devRef .tc main_arg5) := by keep_through hostOps2
theorem hostOps2_main_arg6 : StableHlo.after hostOps2 X (Proc.devRef .tc main_arg6) = X (Proc.devRef .tc main_arg6) := by keep_through hostOps2
theorem hostOps2_main_arg7 : StableHlo.after hostOps2 X (Proc.devRef .tc main_arg7) = X (Proc.devRef .tc main_arg7) := by keep_through hostOps2
theorem hostOps2_main_arg8 : StableHlo.after hostOps2 X (Proc.devRef .tc main_arg8) = X (Proc.devRef .tc main_arg8) := by keep_through hostOps2
theorem hostOps2_main_arg9 : StableHlo.after hostOps2 X (Proc.devRef .tc main_arg9) = X (Proc.devRef .tc main_arg9) := by keep_through hostOps2
theorem hostOps2_main_arg10 : StableHlo.after hostOps2 X (Proc.devRef .tc main_arg10) = X (Proc.devRef .tc main_arg10) := by keep_through hostOps2
theorem hostOps2_main_arg11 : StableHlo.after hostOps2 X (Proc.devRef .tc main_arg11) = X (Proc.devRef .tc main_arg11) := by keep_through hostOps2
theorem hostOps2_main_arg14 : StableHlo.after hostOps2 X (Proc.devRef .tc main_arg14) = X (Proc.devRef .tc main_arg14) := by keep_through hostOps2
theorem hostOps2_main_arg15 : StableHlo.after hostOps2 X (Proc.devRef .tc main_arg15) = X (Proc.devRef .tc main_arg15) := by keep_through hostOps2
theorem hostOps2_main_v10 : StableHlo.after hostOps2 X (Proc.devRef .tc main_v10) = X (Proc.devRef .tc main_v10) := by keep_through hostOps2
theorem hostOps2_main_v12 : StableHlo.after hostOps2 X (Proc.devRef .tc main_v12) = X (Proc.devRef .tc main_v12) := by keep_through hostOps2
theorem hostOps2_main_v13 : StableHlo.after hostOps2 X (Proc.devRef .tc main_v13) = X (Proc.devRef .tc main_v13) := by keep_through hostOps2

/-! ## The stretch `hostOps3` -/

/-- The sparse stage of the previous dense stage's result. -/
theorem hostOps3_agg : StableHlo.after hostOps3 X (Proc.devRef .tc main_v41) = Cert.Spec.aggregate (X (Proc.devRef .tc main_v28)) (X (Proc.devRef .tc main_arg0)) (X (Proc.devRef .tc main_arg1)) (X (Proc.devRef .tc main_arg3)) := by
  refine Eq.trans (b := ?mid) ?h1 ?h2
  case h1 =>
    dsimp only [hostOps3]
    after_results
  case h2 => exact rfl

theorem hostOps3_main_arg0 : StableHlo.after hostOps3 X (Proc.devRef .tc main_arg0) = X (Proc.devRef .tc main_arg0) := by keep_through hostOps3
theorem hostOps3_main_arg1 : StableHlo.after hostOps3 X (Proc.devRef .tc main_arg1) = X (Proc.devRef .tc main_arg1) := by keep_through hostOps3
theorem hostOps3_main_arg3 : StableHlo.after hostOps3 X (Proc.devRef .tc main_arg3) = X (Proc.devRef .tc main_arg3) := by keep_through hostOps3
theorem hostOps3_main_arg7 : StableHlo.after hostOps3 X (Proc.devRef .tc main_arg7) = X (Proc.devRef .tc main_arg7) := by keep_through hostOps3
theorem hostOps3_main_arg8 : StableHlo.after hostOps3 X (Proc.devRef .tc main_arg8) = X (Proc.devRef .tc main_arg8) := by keep_through hostOps3
theorem hostOps3_main_arg9 : StableHlo.after hostOps3 X (Proc.devRef .tc main_arg9) = X (Proc.devRef .tc main_arg9) := by keep_through hostOps3
theorem hostOps3_main_arg10 : StableHlo.after hostOps3 X (Proc.devRef .tc main_arg10) = X (Proc.devRef .tc main_arg10) := by keep_through hostOps3
theorem hostOps3_main_arg11 : StableHlo.after hostOps3 X (Proc.devRef .tc main_arg11) = X (Proc.devRef .tc main_arg11) := by keep_through hostOps3
theorem hostOps3_main_arg14 : StableHlo.after hostOps3 X (Proc.devRef .tc main_arg14) = X (Proc.devRef .tc main_arg14) := by keep_through hostOps3
theorem hostOps3_main_arg15 : StableHlo.after hostOps3 X (Proc.devRef .tc main_arg15) = X (Proc.devRef .tc main_arg15) := by keep_through hostOps3
theorem hostOps3_main_v10 : StableHlo.after hostOps3 X (Proc.devRef .tc main_v10) = X (Proc.devRef .tc main_v10) := by keep_through hostOps3
theorem hostOps3_main_v12 : StableHlo.after hostOps3 X (Proc.devRef .tc main_v12) = X (Proc.devRef .tc main_v12) := by keep_through hostOps3
theorem hostOps3_main_v13 : StableHlo.after hostOps3 X (Proc.devRef .tc main_v13) = X (Proc.devRef .tc main_v13) := by keep_through hostOps3

/-! ## The stretch `hostOps4` -/

/-- The sparse stage of the previous dense stage's result. -/
theorem hostOps4_agg : StableHlo.after hostOps4 X (Proc.devRef .tc main_v55) = Cert.Spec.aggregate (X (Proc.devRef .tc main_v42)) (X (Proc.devRef .tc main_arg0)) (X (Proc.devRef .tc main_arg1)) (X (Proc.devRef .tc main_arg3)) := by
  refine Eq.trans (b := ?mid) ?h1 ?h2
  case h1 =>
    dsimp only [hostOps4]
    after_results
  case h2 => exact rfl

theorem hostOps4_main_arg0 : StableHlo.after hostOps4 X (Proc.devRef .tc main_arg0) = X (Proc.devRef .tc main_arg0) := by keep_through hostOps4
theorem hostOps4_main_arg1 : StableHlo.after hostOps4 X (Proc.devRef .tc main_arg1) = X (Proc.devRef .tc main_arg1) := by keep_through hostOps4
theorem hostOps4_main_arg3 : StableHlo.after hostOps4 X (Proc.devRef .tc main_arg3) = X (Proc.devRef .tc main_arg3) := by keep_through hostOps4
theorem hostOps4_main_arg9 : StableHlo.after hostOps4 X (Proc.devRef .tc main_arg9) = X (Proc.devRef .tc main_arg9) := by keep_through hostOps4
theorem hostOps4_main_arg10 : StableHlo.after hostOps4 X (Proc.devRef .tc main_arg10) = X (Proc.devRef .tc main_arg10) := by keep_through hostOps4
theorem hostOps4_main_arg11 : StableHlo.after hostOps4 X (Proc.devRef .tc main_arg11) = X (Proc.devRef .tc main_arg11) := by keep_through hostOps4
theorem hostOps4_main_arg14 : StableHlo.after hostOps4 X (Proc.devRef .tc main_arg14) = X (Proc.devRef .tc main_arg14) := by keep_through hostOps4
theorem hostOps4_main_arg15 : StableHlo.after hostOps4 X (Proc.devRef .tc main_arg15) = X (Proc.devRef .tc main_arg15) := by keep_through hostOps4
theorem hostOps4_main_v10 : StableHlo.after hostOps4 X (Proc.devRef .tc main_v10) = X (Proc.devRef .tc main_v10) := by keep_through hostOps4
theorem hostOps4_main_v12 : StableHlo.after hostOps4 X (Proc.devRef .tc main_v12) = X (Proc.devRef .tc main_v12) := by keep_through hostOps4
theorem hostOps4_main_v13 : StableHlo.after hostOps4 X (Proc.devRef .tc main_v13) = X (Proc.devRef .tc main_v13) := by keep_through hostOps4

/-! ## The stretch `hostOps5` -/

/-- The sparse stage of the previous dense stage's result. -/
theorem hostOps5_agg : StableHlo.after hostOps5 X (Proc.devRef .tc main_v69) = Cert.Spec.aggregate (X (Proc.devRef .tc main_v56)) (X (Proc.devRef .tc main_arg0)) (X (Proc.devRef .tc main_arg1)) (X (Proc.devRef .tc main_arg3)) := by
  refine Eq.trans (b := ?mid) ?h1 ?h2
  case h1 =>
    dsimp only [hostOps5]
    after_results
  case h2 => exact rfl

theorem hostOps5_main_arg11 : StableHlo.after hostOps5 X (Proc.devRef .tc main_arg11) = X (Proc.devRef .tc main_arg11) := by keep_through hostOps5
theorem hostOps5_main_arg14 : StableHlo.after hostOps5 X (Proc.devRef .tc main_arg14) = X (Proc.devRef .tc main_arg14) := by keep_through hostOps5
theorem hostOps5_main_arg15 : StableHlo.after hostOps5 X (Proc.devRef .tc main_arg15) = X (Proc.devRef .tc main_arg15) := by keep_through hostOps5
theorem hostOps5_main_v12 : StableHlo.after hostOps5 X (Proc.devRef .tc main_v12) = X (Proc.devRef .tc main_v12) := by keep_through hostOps5
theorem hostOps5_main_v13 : StableHlo.after hostOps5 X (Proc.devRef .tc main_v13) = X (Proc.devRef .tc main_v13) := by keep_through hostOps5

end Cert.KernelIdeal.Whole

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.LibPlainProduct.lean ====
/-
  The plain matrix product at the ideal values, where a product is an exact sum.

  For `A : [m, k]` and `B : [k, n]`, the product contracting the second axis of `A` with the first of `B` into a zero
  accumulator has at `(a, b)` the sum over `c` of `A (a, c) · B (c, b)`.
-/
import Idealize.ShloMosaic.Lib.Pipeline.Value
import Idealize.ShloMosaic.Lib.ValueIdx
import Idealize.ShloMosaic.PureOps.Ideal.Laws

noncomputable section

namespace Cert.PlainProduct

open Idealize.ShloMosaic Idealize.ShloMosaic.ValueIdx

/-- `A · B` into the zero accumulator, read at `(a, b)`: the sum over the shared coordinate of the products. -/
theorem matmul_nn_apply {m n k : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    FloatOps.matmul (⟨[1], [0], [0], [1], [], [], w⟩ : DotDims _ _ _) prec A B (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.PlainProduct

end
-- ==== Proof.Tile.lean ====
/-
  What one row tile of each dense stage holds, entry by entry, at the ideal values.

  Every tile is 5000 rows.  A tile's entry `(r, q)` is written over the tile's own rows of the row-tiled operands (the
  activations and the two columns of inverse square roots) and over the whole of the weights and the bias: a change of
  float format is the identity, a product into a zero accumulator is the plain sum over the 128 shared coordinates, a
  column laid along the columns reads its row, a vector laid along the rows reads its column.
-/
import proofs.«156565_j45311904973176_1_alg».proof.Proof.Gen.KernelIdeal.Skeleton
import proofs.«156565_j45311904973176_1_alg».proof.Proof.LibBroadcast
import proofs.«156565_j45311904973176_1_alg».proof.Proof.LibRowsProduct
import proofs.«156565_j45311904973176_1_alg».proof.Proof.LibPlainProduct
import Idealize.ShloMosaic.Lib.Pipeline.Value
import Idealize.ShloMosaic.Lib.ValueIdx

noncomputable section

namespace Cert.KernelIdeal.Tile

open Idealize.ShloMosaic Idealize.ShloMosaic.ValueIdx Cert.KernelIdeal Cert.KernelIdeal.Gen

/-- A tile's rectangle starts at its origin. -/
theorem origin2 : (![0, 0] : Fin 2 → Nat) = fun _ => 0 := funext fun a => by fin_cases a <;> rfl
theorem origin1 : (![0] : Fin 1 → Nat) = fun _ => 0 := funext fun a => by fin_cases a <;> rfl

/-- Region 0's block (the residual branch): entry `(r, q)` is `∑ k, x (r, k) · W (k, q) + b q`. -/
theorem k0_pay1_apply (x0 : Vec Ideal S5000x128 .f32) (x1 : Vec Ideal S128x128 .f32) (x2 : Vec Ideal S128 .f32)
    (r : Fin 5000) (q : Fin 128) :
    k0_pay1 (F := Ideal) x0 x1 x2 (ix2 r q) = (∑ k : Fin 128, x0 (ix2 r k) * x1 (ix2 k q)) + x2 (ix1 q) := by
  unfold k0_pay1
  show FloatOps.matmul (F := Ideal) dot_S5000x128_S128x128_S5000x128_1_0_0_1_n_n none x0 x1 (constant S5000x128 .f32 0x00000000#32) (ix2 r q)
      + broadcastTo S5000x128 (shapeCast S1x128 x2 shapeCasts_S128_S1x128) broadcasts_S1x128_S5000x128 (ix2 r q) = _
  rw [Cert.RowsProduct.broadcastTo_1n_an_apply, Cert.Layout.shapeCast_row_apply]
  exact congrArg (· + x2 (ix1 q)) (Cert.PlainProduct.matmul_nn_apply dot_S5000x128_S128x128_S5000x128_1_0_0_1_n_n_wf none x0 x1 r q)

/-- Region 1's block (the first product): entry `(r, q)` is `∑ k, (x (r, k) · s r) · W (k, q)`. -/
theorem k1_pay1_apply (x0 : Vec Ideal S5000x128 .f32) (x1 : Vec Ideal S5000x1 .f32) (x2 : Vec Ideal S128x128 .f32)
    (r : Fin 5000) (q : Fin 128) :
    k1_pay1 (F := Ideal) x0 x1 x2 (ix2 r q) = ∑ k : Fin 128, (x0 (ix2 r k) * x1 (ix2 r (0 : Fin 1))) * x2 (ix2 k q) := by
  unfold k1_pay1
  refine (Cert.PlainProduct.matmul_nn_apply dot_S5000x128_S128x128_S5000x128_1_0_0_1_n_n_wf none _ _ r q).trans ?_
  refine Finset.sum_congr rfl fun k _ => ?_
  show (x0 (ix2 r k) * broadcastTo S5000x128 (shapeCast S5000x1 x1 shapeCasts_S5000x1_S5000x1) broadcasts_S5000x1_S5000x128 (ix2 r k)) * x2 (ix2 k q) = _
  rw [shapeCast_self, Cert.Layout.broadcastTo_a1_ab_apply]

/-- Region 2's block (finish one convolution and start the next): entry `(r, q)` is
    `∑ k, (max (agg (r, k) · s_in r + b k, 0) · s_out r) · W (k, q)`. -/
theorem k2_pay1_apply (x0 : Vec Ideal S5000x128 .f32) (x1 : Vec Ideal S5000x1 .f32) (x2 : Vec Ideal S128 .f32)
    (x3 : Vec Ideal S5000x1 .f32) (x4 : Vec Ideal S128x128 .f32) (r : Fin 5000) (q : Fin 128) :
    k2_pay1 (F := Ideal) x0 x1 x2 x3 x4 (ix2 r q)
      = ∑ k : Fin 128, (max (x0 (ix2 r k) * x1 (ix2 r (0 : Fin 1)) + x2 (ix1 k)) (Ideal.ofBits .f32 0x00000000#32)
          * x3 (ix2 r (0 : Fin 1))) * x4 (ix2 k q) := by
  unfold k2_pay1
  refine (Cert.PlainProduct.matmul_nn_apply dot_S5000x128_S128x128_S5000x128_1_0_0_1_n_n_wf none _ _ r q).trans ?_
  refine Finset.sum_congr rfl fun k _ => ?_
  show (max (shapeCast S5000x128 x0 shapeCasts_S5000x128_S5000x128 (ix2 r k)
        * broadcastTo S5000x128 (shapeCast S5000x1 x1 shapeCasts_S5000x1_S5000x1) broadcasts_S5000x1_S5000x128 (ix2 r k)
        + broadcastTo S5000x128 (shapeCast S1x128 x2 shapeCasts_S128_S1x128) broadcasts_S1x128_S5000x128 (ix2 r k))
      (Ideal.ofBits .f32 0x00000000#32)
      * broadcastTo S5000x128 (shapeCast S5000x1 x3 shapeCasts_S5000x1_S5000x1) broadcasts_S5000x1_S5000x128 (ix2 r k)) * x4 (ix2 k q) = _
  rw [shapeCast_self, shapeCast_self, shapeCast_self, Cert.Layout.broadcastTo_a1_ab_apply, Cert.Layout.broadcastTo_a1_ab_apply,
    Cert.RowsProduct.broadcastTo_1n_an_apply, Cert.Layout.shapeCast_row_apply]

/-- Region 3's block (finish one convolution and start the next): entry `(r, q)` is
    `∑ k, (max (agg (r, k) · s_in r + b k, 0) · s_out r) · W (k, q)`. -/
theorem k3_pay1_apply (x0 : Vec Ideal S5000x128 .f32) (x1 : Vec Ideal S5000x1 .f32) (x2 : Vec Ideal S128 .f32)
    (x3 : Vec Ideal S5000x1 .f32) (x4 : Vec Ideal S128x128 .f32) (r : Fin 5000) (q : Fin 128) :
    k3_pay1 (F := Ideal) x0 x1 x2 x3 x4 (ix2 r q)
      = ∑ k : Fin 128, (max (x0 (ix2 r k) * x1 (ix2 r (0 : Fin 1)) + x2 (ix1 k)) (Ideal.ofBits .f32 0x00000000#32)
          * x3 (ix2 r (0 : Fin 1))) * x4 (ix2 k q) := by
  unfold k3_pay1
  refine (Cert.PlainProduct.matmul_nn_apply dot_S5000x128_S128x128_S5000x128_1_0_0_1_n_n_wf none _ _ r q).trans ?_
  refine Finset.sum_congr rfl fun k _ => ?_
  show (max (shapeCast S5000x128 x0 shapeCasts_S5000x128_S5000x128 (ix2 r k)
        * broadcastTo S5000x128 (shapeCast S5000x1 x1 shapeCasts_S5000x1_S5000x1) broadcasts_S5000x1_S5000x128 (ix2 r k)
        + broadcastTo S5000x128 (shapeCast S1x128 x2 shapeCasts_S128_S1x128) broadcasts_S1x128_S5000x128 (ix2 r k))
      (Ideal.ofBits .f32 0x00000000#32)
      * broadcastTo S5000x128 (shapeCast S5000x1 x3 shapeCasts_S5000x1_S5000x1) broadcasts_S5000x1_S5000x128 (ix2 r k)) * x4 (ix2 k q) = _
  rw [shapeCast_self, shapeCast_self, shapeCast_self, Cert.Layout.broadcastTo_a1_ab_apply, Cert.Layout.broadcastTo_a1_ab_apply,
    Cert.RowsProduct.broadcastTo_1n_an_apply, Cert.Layout.shapeCast_row_apply]

/-- Region 4's block (finish one convolution and start the next): entry `(r, q)` is
    `∑ k, (max (agg (r, k) · s_in r + b k, 0) · s_out r) · W (k, q)`. -/
theorem k4_pay1_apply (x0 : Vec Ideal S5000x128 .f32) (x1 : Vec Ideal S5000x1 .f32) (x2 : Vec Ideal S128 .f32)
    (x3 : Vec Ideal S5000x1 .f32) (x4 : Vec Ideal S128x128 .f32) (r : Fin 5000) (q : Fin 128) :
    k4_pay1 (F := Ideal) x0 x1 x2 x3 x4 (ix2 r q)
      = ∑ k : Fin 128, (max (x0 (ix2 r k) * x1 (ix2 r (0 : Fin 1)) + x2 (ix1 k)) (Ideal.ofBits .f32 0x00000000#32)
          * x3 (ix2 r (0 : Fin 1))) * x4 (ix2 k q) := by
  unfold k4_pay1
  refine (Cert.PlainProduct.matmul_nn_apply dot_S5000x128_S128x128_S5000x128_1_0_0_1_n_n_wf none _ _ r q).trans ?_
  refine Finset.sum_congr rfl fun k _ => ?_
  show (max (shapeCast S5000x128 x0 shapeCasts_S5000x128_S5000x128 (ix2 r k)
        * broadcastTo S5000x128 (shapeCast S5000x1 x1 shapeCasts_S5000x1_S5000x1) broadcasts_S5000x1_S5000x128 (ix2 r k)
        + broadcastTo S5000x128 (shapeCast S1x128 x2 shapeCasts_S128_S1x128) broadcasts_S1x128_S5000x128 (ix2 r k))
      (Ideal.ofBits .f32 0x00000000#32)
      * broadcastTo S5000x128 (shapeCast S5000x1 x3 shapeCasts_S5000x1_S5000x1) broadcasts_S5000x1_S5000x128 (ix2 r k)) * x4 (ix2 k q) = _
  rw [shapeCast_self, shapeCast_self, shapeCast_self, Cert.Layout.broadcastTo_a1_ab_apply, Cert.Layout.broadcastTo_a1_ab_apply,
    Cert.RowsProduct.broadcastTo_1n_an_apply, Cert.Layout.shapeCast_row_apply]

/-- Region 5's block (finish the last convolution and join the residual): entry `(r, q)` is
    `max ((agg (r, q) · s_in r + b q) + res (r, q), 0)`. -/
theorem k5_pay1_apply (x0 : Vec Ideal S5000x128 .f32) (x1 : Vec Ideal S5000x1 .f32) (x2 : Vec Ideal S128 .f32)
    (x3 : Vec Ideal S5000x128 .f32) (r : Fin 5000) (q : Fin 128) :
    k5_pay1 (F := Ideal) x0 x1 x2 x3 (ix2 r q)
      = max ((x0 (ix2 r q) * x1 (ix2 r (0 : Fin 1)) + x2 (ix1 q)) + x3 (ix2 r q)) (Ideal.ofBits .f32 0x00000000#32) := by
  unfold k5_pay1
  show max ((shapeCast S5000x128 x0 shapeCasts_S5000x128_S5000x128 (ix2 r q)
        * broadcastTo S5000x128 (shapeCast S5000x1 x1 shapeCasts_S5000x1_S5000x1) broadcasts_S5000x1_S5000x128 (ix2 r q)
        + broadcastTo S5000x128 (shapeCast S1x128 x2 shapeCasts_S128_S1x128) broadcasts_S1x128_S5000x128 (ix2 r q))
        + shapeCast S5000x128 x3 shapeCasts_S5000x128_S5000x128 (ix2 r q))
      (Ideal.ofBits .f32 0x00000000#32) = _
  rw [shapeCast_self, shapeCast_self, shapeCast_self, Cert.Layout.broadcastTo_a1_ab_apply,
    Cert.RowsProduct.broadcastTo_1n_an_apply, Cert.Layout.shapeCast_row_apply]

/-- Region 6's block (the projection to sixteen classes): entry `(r, q)` is `∑ k, x (r, k) · Wo (k, q) + bo q`. -/
theorem k6_pay1_apply (x0 : Vec Ideal S5000x128 .f32) (x1 : Vec Ideal S128x16 .f32) (x2 : Vec Ideal S16 .f32)
    (r : Fin 5000) (q : Fin 16) :
    k6_pay1 (F := Ideal) x0 x1 x2 (ix2 r q) = (∑ k : Fin 128, x0 (ix2 r k) * x1 (ix2 k q)) + x2 (ix1 q) := by
  unfold k6_pay1
  show FloatOps.matmul (F := Ideal) dot_S5000x128_S128x16_S5000x16_1_0_0_1_n_n none (shapeCast S5000x128 x0 shapeCasts_S5000x128_S5000x128) x1 (constant S5000x16 .f32 0x00000000#32) (ix2 r q)
      + broadcastTo S5000x16 (shapeCast S1x16 x2 shapeCasts_S16_S1x16) broadcasts_S1x16_S5000x16 (ix2 r q) = _
  rw [shapeCast_self, Cert.RowsProduct.broadcastTo_1n_an_apply, Cert.Layout.shapeCast_row_apply]
  exact congrArg (· + x2 (ix1 q)) (Cert.PlainProduct.matmul_nn_apply dot_S5000x128_S128x16_S5000x16_1_0_0_1_n_n_wf none x0 x1 r q)

end Cert.KernelIdeal.Tile

end
-- ==== Proof.Region0.lean ====
/-
  Region 0 (the residual branch), from row tiles to the whole array: tile `t` of the ten holds rows `5000 t … 5000 t + 4999`, the
  tiles cover every row, so the region leaves its result array at `affine` of the arrays it found.
-/
import proofs.«156565_j45311904973176_1_alg».proof.Proof.Gen.KernelIdeal.Frame
import proofs.«156565_j45311904973176_1_alg».proof.Proof.Tile
import proofs.«156565_j45311904973176_1_alg».proof.Proof.Spec

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One tile's entry against the whole array's: row `r` of the tile is row `p` of the arrays. -/
theorem tile0 (A : Cert.Spec.Mat) (W : Cert.Spec.Wt) (b : Cert.Spec.Bias)
    (x0 : Vec Ideal S5000x128 .f32) (x1 : Vec Ideal S128x128 .f32) (x2 : Vec Ideal S128 .f32)
    (i : S50000x128.Idx) (r : Fin 5000) (q : Fin 128) (p : Fin 50000) (hi : i = ix2 p q)
    (h0 : ∀ k : Fin 128, x0 (ix2 r k) = A (ix2 p k))
    (h1 : ∀ k : Fin 128, x1 (ix2 k q) = W (ix2 k q))
    (h2 : x2 (ix1 q) = b (ix1 q)) :
    k0_pay1 (F := Ideal) x0 x1 x2 (ix2 r q) = Cert.Spec.affine A W b i := by
  subst hi
  rw [Cert.KernelIdeal.Tile.k0_pay1_apply, Cert.Spec.affine_apply, h2]
  refine congrArg (· + b (ix1 q)) (Finset.sum_congr rfl fun k _ => ?_)
  rw [h0 k, h1 k]

/-- The index maps over the ten tiles: the row-tiled operands and the result move with the tile, the weights and the
    bias stay. -/
theorem idx0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = t.val
    ∧ win0_3.index t (1 : Fin 2) = 0 :=
  (by decide +kernel : ∀ t : Fin grid0.N, _)

theorem idxOut0 (t : Fin cfg0.N) : win0_3.index t (0 : Fin 2) = t.val ∧ win0_3.index t (1 : Fin 2) = 0 := by
  obtain ⟨-, -, -, -, -, eo0, eo1⟩ := idx0 t
  exact ⟨eo0, eo1⟩

/-- What tile `t` writes back is tile `t` of the whole-array function. -/
theorem flushed0 (c : Dev nD) (t : Fin cfg0.N) :
    (dat0 V c).flushed 3 t = ((cfg0.win 3).blk t).view.read (Elt Ideal)
      (Cert.Spec.affine (V c main_arg2) (V c main_arg12) (V c main_arg13)) := by
  show (cfg0.win 3).cut (grid0.coords t) ((dat0 V c).after 3 t) = _
  rw [after0_3]
  unfold out0_3
  rw [View.canon_unit_zero Cert.KernelIdeal.Tile.origin2]
  simp only [View.ld_unit_zero (S := S5000x128) Cert.KernelIdeal.Tile.origin2, View.ld_unit_zero (S := S128x128) Cert.KernelIdeal.Tile.origin2, View.ld_unit_zero (S := S128) Cert.KernelIdeal.Tile.origin1]
  obtain ⟨e00, e01, e10, e11, e20, eo0, eo1⟩ := idx0 t
  have ht : t.val < 10 := t.isLt
  funext j
  obtain ⟨r, q, rfl⟩ : ∃ (r : Fin 5000) (q : Fin 128), j = ix2 r q := ⟨j 0, j 1, eq_ix2 j⟩
  have hr : r.val < 5000 := r.isLt
  refine tile0 (V c main_arg2) (V c main_arg12) (V c main_arg13) (iblk0 V c 0 t) (iblk0 V c 1 t) (iblk0 V c 2 t)
    _ r q ⟨t.val * 5000 + r.val, by omega⟩ ?_ (fun k => ?_) (fun k => ?_) ?_
  · funext a; apply Fin.ext
    match a with
    | ⟨0, _⟩ => show win0_3.index t (0 : Fin 2) * 5000 + 1 * r.val = t.val * 5000 + r.val; omega
    | ⟨1, _⟩ => show win0_3.index t (1 : Fin 2) * 128 + 1 * q.val = q.val; omega
  · show V c main_arg2 (((cfg0.win 0).blk t).view.emb (ix2 r k)) = V c main_arg2 (ix2 ⟨t.val * 5000 + r.val, by omega⟩ k)
    refine congrArg (V c main_arg2) ?_
    funext a; apply Fin.ext
    match a with
    | ⟨0, _⟩ => show win0_0.index t (0 : Fin 2) * 5000 + 1 * r.val = t.val * 5000 + r.val; omega
    | ⟨1, _⟩ => show win0_0.index t (1 : Fin 2) * 128 + 1 * k.val = k.val; omega
  · show V c main_arg12 (((cfg0.win 1).blk t).view.emb (ix2 k q)) = V c main_arg12 (ix2 k q)
    refine congrArg (V c main_arg12) ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  · show V c main_arg13 (((cfg0.win 2).blk t).view.emb (ix1 q)) = V c main_arg13 (ix1 q)
    refine congrArg (V c main_arg13) ?_
    funext a; apply Fin.ext
    match a with
    | ⟨0, _⟩ => show win0_2.index t (0 : Fin 1) * 128 + 1 * q.val = q.val; omega

/-- An index is in tile `t`'s rows and columns exactly when each coordinate is in the tile's range. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v13).slice (win0_3.rect t)).set ↔ _
  rw [View.set_slice_whole, Rect.mem_set_unit]
  exact Iff.rfl

/-- Row `p` lies in tile `p / 5000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ : ∃ t : Fin cfg0.N, t.val = (i 0).val / 5000 := ⟨(⟨(i 0).val / 5000, by omega⟩ : Fin 10), rfl⟩
  obtain ⟨eo0, eo1⟩ := idxOut0 t
  refine ⟨t, flush0_3 t, ?_⟩
  rw [mem_blk0]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- Region 0 leaves its result array at `affine` of the arrays it found. -/
theorem final0 (c : Dev nD) : (dat0 V c).arrAt 3 cfg0.N = Cert.Spec.affine (V c main_arg2) (V c main_arg12) (V c main_arg13) :=
  (dat0 V c).arrAt_eq_of_cover 3 _ (fun t _ => flushed0 V c t) cover0

end Cert.KernelIdeal.Whole

end
-- ==== Proof.Region1.lean ====
/-
  Region 1 (the first product), from row tiles to the whole array: tile `t` of the ten holds rows `5000 t … 5000 t + 4999`, the
  tiles cover every row, so the region leaves its result array at `prescale` of the arrays it found.
-/
import proofs.«156565_j45311904973176_1_alg».proof.Proof.Gen.KernelIdeal.Frame
import proofs.«156565_j45311904973176_1_alg».proof.Proof.Tile
import proofs.«156565_j45311904973176_1_alg».proof.Proof.Spec

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One tile's entry against the whole array's: row `r` of the tile is row `p` of the arrays. -/
theorem tile1 (A : Cert.Spec.Mat) (S : Cert.Spec.Col) (W : Cert.Spec.Wt)
    (x0 : Vec Ideal S5000x128 .f32) (x1 : Vec Ideal S5000x1 .f32) (x2 : Vec Ideal S128x128 .f32)
    (i : S50000x128.Idx) (r : Fin 5000) (q : Fin 128) (p : Fin 50000) (hi : i = ix2 p q)
    (h0 : ∀ k : Fin 128, x0 (ix2 r k) = A (ix2 p k))
    (h1 : x1 (ix2 r (0 : Fin 1)) = S (ix2 p (0 : Fin 1)))
    (h2 : ∀ k : Fin 128, x2 (ix2 k q) = W (ix2 k q)) :
    k1_pay1 (F := Ideal) x0 x1 x2 (ix2 r q) = Cert.Spec.prescale A S W i := by
  subst hi
  rw [Cert.KernelIdeal.Tile.k1_pay1_apply, Cert.Spec.prescale_apply]
  refine Finset.sum_congr rfl fun k _ => ?_
  rw [h0 k, h1, h2 k]

/-- The index maps over the ten tiles: the row-tiled operands and the result move with the tile, the weights and the
    bias stay. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

theorem idxOut1 (t : Fin cfg1.N) : win1_3.index t (0 : Fin 2) = t.val ∧ win1_3.index t (1 : Fin 2) = 0 := by
  obtain ⟨-, -, -, -, -, -, eo0, eo1⟩ := idx1 t
  exact ⟨eo0, eo1⟩

/-- What tile `t` writes back is tile `t` of the whole-array function. -/
theorem flushed1 (c : Dev nD) (t : Fin cfg1.N) :
    (dat1 V c).flushed 3 t = ((cfg1.win 3).blk t).view.read (Elt Ideal)
      (Cert.Spec.prescale (V c main_arg2) (V c main_v10) (V c main_arg4)) := by
  show (cfg1.win 3).cut (grid1.coords t) ((dat1 V c).after 3 t) = _
  rw [after1_3]
  unfold out1_3
  rw [View.canon_unit_zero Cert.KernelIdeal.Tile.origin2]
  simp only [View.ld_unit_zero (S := S5000x128) Cert.KernelIdeal.Tile.origin2, View.ld_unit_zero (S := S5000x1) Cert.KernelIdeal.Tile.origin2, View.ld_unit_zero (S := S128x128) Cert.KernelIdeal.Tile.origin2]
  obtain ⟨e00, e01, e10, e11, e20, e21, eo0, eo1⟩ := idx1 t
  have ht : t.val < 10 := t.isLt
  funext j
  obtain ⟨r, q, rfl⟩ : ∃ (r : Fin 5000) (q : Fin 128), j = ix2 r q := ⟨j 0, j 1, eq_ix2 j⟩
  have hr : r.val < 5000 := r.isLt
  refine tile1 (V c main_arg2) (V c main_v10) (V c main_arg4) (iblk1 V c 0 t) (iblk1 V c 1 t) (iblk1 V c 2 t)
    _ r q ⟨t.val * 5000 + r.val, by omega⟩ ?_ (fun k => ?_) ?_ (fun k => ?_)
  · funext a; apply Fin.ext
    match a with
    | ⟨0, _⟩ => show win1_3.index t (0 : Fin 2) * 5000 + 1 * r.val = t.val * 5000 + r.val; omega
    | ⟨1, _⟩ => show win1_3.index t (1 : Fin 2) * 128 + 1 * q.val = q.val; omega
  · show V c main_arg2 (((cfg1.win 0).blk t).view.emb (ix2 r k)) = V c main_arg2 (ix2 ⟨t.val * 5000 + r.val, by omega⟩ k)
    refine congrArg (V c main_arg2) ?_
    funext a; apply Fin.ext
    match a with
    | ⟨0, _⟩ => show win1_0.index t (0 : Fin 2) * 5000 + 1 * r.val = t.val * 5000 + r.val; omega
    | ⟨1, _⟩ => show win1_0.index t (1 : Fin 2) * 128 + 1 * k.val = k.val; omega
  · show V c main_v10 (((cfg1.win 1).blk t).view.emb (ix2 r (0 : Fin 1))) = V c main_v10 (ix2 ⟨t.val * 5000 + r.val, by omega⟩ (0 : Fin 1))
    refine congrArg (V c main_v10) ?_
    funext a; apply Fin.ext
    match a with
    | ⟨0, _⟩ => show win1_1.index t (0 : Fin 2) * 5000 + 1 * r.val = t.val * 5000 + r.val; omega
    | ⟨1, _⟩ => show win1_1.index t (1 : Fin 2) * 1 + 1 * 0 = 0; omega
  · show V c main_arg4 (((cfg1.win 2).blk t).view.emb (ix2 k q)) = V c main_arg4 (ix2 k q)
    refine congrArg (V c main_arg4) ?_
    funext a; apply Fin.ext
    match a with
    | ⟨0, _⟩ => show win1_2.index t (0 : Fin 2) * 128 + 1 * k.val = k.val; omega
    | ⟨1, _⟩ => show win1_2.index t (1 : Fin 2) * 128 + 1 * q.val = q.val; omega

/-- An index is in tile `t`'s rows and columns exactly when each coordinate is in the tile's range. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v14).slice (win1_3.rect t)).set ↔ _
  rw [View.set_slice_whole, Rect.mem_set_unit]
  exact Iff.rfl

/-- Row `p` lies in tile `p / 5000`. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 := ⟨(⟨(i 0).val / 5000, by omega⟩ : Fin 10), rfl⟩
  obtain ⟨eo0, eo1⟩ := idxOut1 t
  refine ⟨t, flush1_3 t, ?_⟩
  rw [mem_blk1]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- Region 1 leaves its result array at `prescale` of the arrays it found. -/
theorem final1 (c : Dev nD) : (dat1 V c).arrAt 3 cfg1.N = Cert.Spec.prescale (V c main_arg2) (V c main_v10) (V c main_arg4) :=
  (dat1 V c).arrAt_eq_of_cover 3 _ (fun t _ => flushed1 V c t) cover1

end Cert.KernelIdeal.Whole

end
-- ==== Proof.Region2.lean ====
/-
  Region 2 (finish the first convolution, start the second), from row tiles to the whole array: tile `t` of the ten holds rows `5000 t … 5000 t + 4999`, the
  tiles cover every row, so the region leaves its result array at `finishPrescale` of the arrays it found.
-/
import proofs.«156565_j45311904973176_1_alg».proof.Proof.Gen.KernelIdeal.Frame
import proofs.«156565_j45311904973176_1_alg».proof.Proof.Tile
import proofs.«156565_j45311904973176_1_alg».proof.Proof.Spec

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One tile's entry against the whole array's: row `r` of the tile is row `p` of the arrays. -/
theorem tile2 (A : Cert.Spec.Mat) (SI : Cert.Spec.Col) (b : Cert.Spec.Bias) (SO : Cert.Spec.Col) (W : Cert.Spec.Wt)
    (x0 : Vec Ideal S5000x128 .f32) (x1 : Vec Ideal S5000x1 .f32) (x2 : Vec Ideal S128 .f32)
    (x3 : Vec Ideal S5000x1 .f32) (x4 : Vec Ideal S128x128 .f32)
    (i : S50000x128.Idx) (r : Fin 5000) (q : Fin 128) (p : Fin 50000) (hi : i = ix2 p q)
    (h0 : ∀ k : Fin 128, x0 (ix2 r k) = A (ix2 p k))
    (h1 : x1 (ix2 r (0 : Fin 1)) = SI (ix2 p (0 : Fin 1)))
    (h2 : ∀ k : Fin 128, x2 (ix1 k) = b (ix1 k))
    (h3 : x3 (ix2 r (0 : Fin 1)) = SO (ix2 p (0 : Fin 1)))
    (h4 : ∀ k : Fin 128, x4 (ix2 k q) = W (ix2 k q)) :
    k2_pay1 (F := Ideal) x0 x1 x2 x3 x4 (ix2 r q) = Cert.Spec.finishPrescale A SI b SO W i := by
  subst hi
  rw [Cert.KernelIdeal.Tile.k2_pay1_apply, Cert.Spec.finishPrescale_apply]
  refine Finset.sum_congr rfl fun k _ => ?_
  rw [h0 k, h1, h2 k, h3, h4 k]

/-- The index maps over the ten tiles: the row-tiled operands and the result move with the tile, the weights and the
    bias stay. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 1) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

theorem idxOut2 (t : Fin cfg2.N) : win2_5.index t (0 : Fin 2) = t.val ∧ win2_5.index t (1 : Fin 2) = 0 := by
  obtain ⟨-, -, -, -, -, -, -, -, -, eo0, eo1⟩ := idx2 t
  exact ⟨eo0, eo1⟩

/-- What tile `t` writes back is tile `t` of the whole-array function. -/
theorem flushed2 (c : Dev nD) (t : Fin cfg2.N) :
    (dat2 V c).flushed 5 t = ((cfg2.win 5).blk t).view.read (Elt Ideal)
      (Cert.Spec.finishPrescale (V c main_v27) (V c main_v12) (V c main_arg5) (V c main_v10) (V c main_arg6)) := by
  show (cfg2.win 5).cut (grid2.coords t) ((dat2 V c).after 5 t) = _
  rw [after2_5]
  unfold out2_5
  rw [View.canon_unit_zero Cert.KernelIdeal.Tile.origin2]
  simp only [View.ld_unit_zero (S := S5000x128) Cert.KernelIdeal.Tile.origin2, View.ld_unit_zero (S := S5000x1) Cert.KernelIdeal.Tile.origin2, View.ld_unit_zero (S := S128) Cert.KernelIdeal.Tile.origin1, View.ld_unit_zero (S := S128x128) Cert.KernelIdeal.Tile.origin2]
  obtain ⟨e00, e01, e10, e11, e20, e30, e31, e40, e41, eo0, eo1⟩ := idx2 t
  have ht : t.val < 10 := t.isLt
  funext j
  obtain ⟨r, q, rfl⟩ : ∃ (r : Fin 5000) (q : Fin 128), j = ix2 r q := ⟨j 0, j 1, eq_ix2 j⟩
  have hr : r.val < 5000 := r.isLt
  refine tile2 (V c main_v27) (V c main_v12) (V c main_arg5) (V c main_v10) (V c main_arg6) (iblk2 V c 0 t) (iblk2 V c 1 t) (iblk2 V c 2 t) (iblk2 V c 3 t) (iblk2 V c 4 t)
    _ r q ⟨t.val * 5000 + r.val, by omega⟩ ?_ (fun k => ?_) ?_ (fun k => ?_) ?_ (fun k => ?_)
  · funext a; apply Fin.ext
    match a with
    | ⟨0, _⟩ => show win2_5.index t (0 : Fin 2) * 5000 + 1 * r.val = t.val * 5000 + r.val; omega
    | ⟨1, _⟩ => show win2_5.index t (1 : Fin 2) * 128 + 1 * q.val = q.val; omega
  · show V c main_v27 (((cfg2.win 0).blk t).view.emb (ix2 r k)) = V c main_v27 (ix2 ⟨t.val * 5000 + r.val, by omega⟩ k)
    refine congrArg (V c main_v27) ?_
    funext a; apply Fin.ext
    match a with
    | ⟨0, _⟩ => show win2_0.index t (0 : Fin 2) * 5000 + 1 * r.val = t.val * 5000 + r.val; omega
    | ⟨1, _⟩ => show win2_0.index t (1 : Fin 2) * 128 + 1 * k.val = k.val; omega
  · show V c main_v12 (((cfg2.win 1).blk t).view.emb (ix2 r (0 : Fin 1))) = V c main_v12 (ix2 ⟨t.val * 5000 + r.val, by omega⟩ (0 : Fin 1))
    refine congrArg (V c main_v12) ?_
    funext a; apply Fin.ext
    match a with
    | ⟨0, _⟩ => show win2_1.index t (0 : Fin 2) * 5000 + 1 * r.val = t.val * 5000 + r.val; omega
    | ⟨1, _⟩ => show win2_1.index t (1 : Fin 2) * 1 + 1 * 0 = 0; omega
  · show V c main_arg5 (((cfg2.win 2).blk t).view.emb (ix1 k)) = V c main_arg5 (ix1 k)
    refine congrArg (V c main_arg5) ?_
    funext a; apply Fin.ext
    match a with
    | ⟨0, _⟩ => show win2_2.index t (0 : Fin 1) * 128 + 1 * k.val = k.val; omega
  · show V c main_v10 (((cfg2.win 3).blk t).view.emb (ix2 r (0 : Fin 1))) = V c main_v10 (ix2 ⟨t.val * 5000 + r.val, by omega⟩ (0 : Fin 1))
    refine congrArg (V c main_v10) ?_
    funext a; apply Fin.ext
    match a with
    | ⟨0, _⟩ => show win2_3.index t (0 : Fin 2) * 5000 + 1 * r.val = t.val * 5000 + r.val; omega
    | ⟨1, _⟩ => show win2_3.index t (1 : Fin 2) * 1 + 1 * 0 = 0; omega
  · show V c main_arg6 (((cfg2.win 4).blk t).view.emb (ix2 k q)) = V c main_arg6 (ix2 k q)
    refine congrArg (V c main_arg6) ?_
    funext a; apply Fin.ext
    match a with
    | ⟨0, _⟩ => show win2_4.index t (0 : Fin 2) * 128 + 1 * k.val = k.val; omega
    | ⟨1, _⟩ => show win2_4.index t (1 : Fin 2) * 128 + 1 * q.val = q.val; omega

/-- An index is in tile `t`'s rows and columns exactly when each coordinate is in the tile's range. -/
theorem mem_blk2 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v28).slice (win2_5.rect t)).set ↔ _
  rw [View.set_slice_whole, Rect.mem_set_unit]
  exact Iff.rfl

/-- Row `p` lies in tile `p / 5000`. -/
theorem cover2 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 5000 := ⟨(⟨(i 0).val / 5000, by omega⟩ : Fin 10), rfl⟩
  obtain ⟨eo0, eo1⟩ := idxOut2 t
  refine ⟨t, flush2_5 t, ?_⟩
  rw [mem_blk2]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- Region 2 leaves its result array at `finishPrescale` of the arrays it found. -/
theorem final2 (c : Dev nD) : (dat2 V c).arrAt 5 cfg2.N = Cert.Spec.finishPrescale (V c main_v27) (V c main_v12) (V c main_arg5) (V c main_v10) (V c main_arg6) :=
  (dat2 V c).arrAt_eq_of_cover 5 _ (fun t _ => flushed2 V c t) cover2

end Cert.KernelIdeal.Whole

end
-- ==== Proof.Region3.lean ====
/-
  Region 3 (finish the second convolution, start the third), from row tiles to the whole array: tile `t` of the ten holds rows `5000 t … 5000 t + 4999`, the
  tiles cover every row, so the region leaves its result array at `finishPrescale` of the arrays it found.
-/
import proofs.«156565_j45311904973176_1_alg».proof.Proof.Gen.KernelIdeal.Frame
import proofs.«156565_j45311904973176_1_alg».proof.Proof.Tile
import proofs.«156565_j45311904973176_1_alg».proof.Proof.Spec

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One tile's entry against the whole array's: row `r` of the tile is row `p` of the arrays. -/
theorem tile3 (A : Cert.Spec.Mat) (SI : Cert.Spec.Col) (b : Cert.Spec.Bias) (SO : Cert.Spec.Col) (W : Cert.Spec.Wt)
    (x0 : Vec Ideal S5000x128 .f32) (x1 : Vec Ideal S5000x1 .f32) (x2 : Vec Ideal S128 .f32)
    (x3 : Vec Ideal S5000x1 .f32) (x4 : Vec Ideal S128x128 .f32)
    (i : S50000x128.Idx) (r : Fin 5000) (q : Fin 128) (p : Fin 50000) (hi : i = ix2 p q)
    (h0 : ∀ k : Fin 128, x0 (ix2 r k) = A (ix2 p k))
    (h1 : x1 (ix2 r (0 : Fin 1)) = SI (ix2 p (0 : Fin 1)))
    (h2 : ∀ k : Fin 128, x2 (ix1 k) = b (ix1 k))
    (h3 : x3 (ix2 r (0 : Fin 1)) = SO (ix2 p (0 : Fin 1)))
    (h4 : ∀ k : Fin 128, x4 (ix2 k q) = W (ix2 k q)) :
    k3_pay1 (F := Ideal) x0 x1 x2 x3 x4 (ix2 r q) = Cert.Spec.finishPrescale A SI b SO W i := by
  subst hi
  rw [Cert.KernelIdeal.Tile.k3_pay1_apply, Cert.Spec.finishPrescale_apply]
  refine Finset.sum_congr rfl fun k _ => ?_
  rw [h0 k, h1, h2 k, h3, h4 k]

/-- The index maps over the ten tiles: the row-tiled operands and the result move with the tile, the weights and the
    bias stay. -/
theorem idx3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 1) = 0
    ∧ win3_3.index t (0 : Fin 2) = t.val
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

theorem idxOut3 (t : Fin cfg3.N) : win3_5.index t (0 : Fin 2) = t.val ∧ win3_5.index t (1 : Fin 2) = 0 := by
  obtain ⟨-, -, -, -, -, -, -, -, -, eo0, eo1⟩ := idx3 t
  exact ⟨eo0, eo1⟩

/-- What tile `t` writes back is tile `t` of the whole-array function. -/
theorem flushed3 (c : Dev nD) (t : Fin cfg3.N) :
    (dat3 V c).flushed 5 t = ((cfg3.win 5).blk t).view.read (Elt Ideal)
      (Cert.Spec.finishPrescale (V c main_v41) (V c main_v12) (V c main_arg7) (V c main_v10) (V c main_arg8)) := by
  show (cfg3.win 5).cut (grid3.coords t) ((dat3 V c).after 5 t) = _
  rw [after3_5]
  unfold out3_5
  rw [View.canon_unit_zero Cert.KernelIdeal.Tile.origin2]
  simp only [View.ld_unit_zero (S := S5000x128) Cert.KernelIdeal.Tile.origin2, View.ld_unit_zero (S := S5000x1) Cert.KernelIdeal.Tile.origin2, View.ld_unit_zero (S := S128) Cert.KernelIdeal.Tile.origin1, View.ld_unit_zero (S := S128x128) Cert.KernelIdeal.Tile.origin2]
  obtain ⟨e00, e01, e10, e11, e20, e30, e31, e40, e41, eo0, eo1⟩ := idx3 t
  have ht : t.val < 10 := t.isLt
  funext j
  obtain ⟨r, q, rfl⟩ : ∃ (r : Fin 5000) (q : Fin 128), j = ix2 r q := ⟨j 0, j 1, eq_ix2 j⟩
  have hr : r.val < 5000 := r.isLt
  refine tile3 (V c main_v41) (V c main_v12) (V c main_arg7) (V c main_v10) (V c main_arg8) (iblk3 V c 0 t) (iblk3 V c 1 t) (iblk3 V c 2 t) (iblk3 V c 3 t) (iblk3 V c 4 t)
    _ r q ⟨t.val * 5000 + r.val, by omega⟩ ?_ (fun k => ?_) ?_ (fun k => ?_) ?_ (fun k => ?_)
  · funext a; apply Fin.ext
    match a with
    | ⟨0, _⟩ => show win3_5.index t (0 : Fin 2) * 5000 + 1 * r.val = t.val * 5000 + r.val; omega
    | ⟨1, _⟩ => show win3_5.index t (1 : Fin 2) * 128 + 1 * q.val = q.val; omega
  · show V c main_v41 (((cfg3.win 0).blk t).view.emb (ix2 r k)) = V c main_v41 (ix2 ⟨t.val * 5000 + r.val, by omega⟩ k)
    refine congrArg (V c main_v41) ?_
    funext a; apply Fin.ext
    match a with
    | ⟨0, _⟩ => show win3_0.index t (0 : Fin 2) * 5000 + 1 * r.val = t.val * 5000 + r.val; omega
    | ⟨1, _⟩ => show win3_0.index t (1 : Fin 2) * 128 + 1 * k.val = k.val; omega
  · show V c main_v12 (((cfg3.win 1).blk t).view.emb (ix2 r (0 : Fin 1))) = V c main_v12 (ix2 ⟨t.val * 5000 + r.val, by omega⟩ (0 : Fin 1))
    refine congrArg (V c main_v12) ?_
    funext a; apply Fin.ext
    match a with
    | ⟨0, _⟩ => show win3_1.index t (0 : Fin 2) * 5000 + 1 * r.val = t.val * 5000 + r.val; omega
    | ⟨1, _⟩ => show win3_1.index t (1 : Fin 2) * 1 + 1 * 0 = 0; omega
  · show V c main_arg7 (((cfg3.win 2).blk t).view.emb (ix1 k)) = V c main_arg7 (ix1 k)
    refine congrArg (V c main_arg7) ?_
    funext a; apply Fin.ext
    match a with
    | ⟨0, _⟩ => show win3_2.index t (0 : Fin 1) * 128 + 1 * k.val = k.val; omega
  · show V c main_v10 (((cfg3.win 3).blk t).view.emb (ix2 r (0 : Fin 1))) = V c main_v10 (ix2 ⟨t.val * 5000 + r.val, by omega⟩ (0 : Fin 1))
    refine congrArg (V c main_v10) ?_
    funext a; apply Fin.ext
    match a with
    | ⟨0, _⟩ => show win3_3.index t (0 : Fin 2) * 5000 + 1 * r.val = t.val * 5000 + r.val; omega
    | ⟨1, _⟩ => show win3_3.index t (1 : Fin 2) * 1 + 1 * 0 = 0; omega
  · show V c main_arg8 (((cfg3.win 4).blk t).view.emb (ix2 k q)) = V c main_arg8 (ix2 k q)
    refine congrArg (V c main_arg8) ?_
    funext a; apply Fin.ext
    match a with
    | ⟨0, _⟩ => show win3_4.index t (0 : Fin 2) * 128 + 1 * k.val = k.val; omega
    | ⟨1, _⟩ => show win3_4.index t (1 : Fin 2) * 128 + 1 * q.val = q.val; omega

/-- An index is in tile `t`'s rows and columns exactly when each coordinate is in the tile's range. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v42).slice (win3_5.rect t)).set ↔ _
  rw [View.set_slice_whole, Rect.mem_set_unit]
  exact Iff.rfl

/-- Row `p` lies in tile `p / 5000`. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  obtain ⟨t, ht⟩ : ∃ t : Fin cfg3.N, t.val = (i 0).val / 5000 := ⟨(⟨(i 0).val / 5000, by omega⟩ : Fin 10), rfl⟩
  obtain ⟨eo0, eo1⟩ := idxOut3 t
  refine ⟨t, flush3_5 t, ?_⟩
  rw [mem_blk3]
  intro a
  match a with
  | ⟨0, _⟩ =>
    show win3_5.index t (0 : Fin 2) * 5000 ≤ (i 0).val ∧ (i 0).val < win3_5.index t (0 : Fin 2) * 5000 + 5000
    omega
  | ⟨1, _⟩ =>
    show win3_5.index t (1 : Fin 2) * 128 ≤ (i 1).val ∧ (i 1).val < win3_5.index t (1 : Fin 2) * 128 + 128
    omega

/-- Region 3 leaves its result array at `finishPrescale` of the arrays it found. -/
theorem final3 (c : Dev nD) : (dat3 V c).arrAt 5 cfg3.N = Cert.Spec.finishPrescale (V c main_v41) (V c main_v12) (V c main_arg7) (V c main_v10) (V c main_arg8) :=
  (dat3 V c).arrAt_eq_of_cover 5 _ (fun t _ => flushed3 V c t) cover3

end Cert.KernelIdeal.Whole

end
-- ==== Proof.Region4.lean ====
/-
  Region 4 (finish the third convolution, start the fourth), from row tiles to the whole array: tile `t` of the ten holds rows `5000 t … 5000 t + 4999`, the
  tiles cover every row, so the region leaves its result array at `finishPrescale` of the arrays it found.
-/
import proofs.«156565_j45311904973176_1_alg».proof.Proof.Gen.KernelIdeal.Frame
import proofs.«156565_j45311904973176_1_alg».proof.Proof.Tile
import proofs.«156565_j45311904973176_1_alg».proof.Proof.Spec

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One tile's entry against the whole array's: row `r` of the tile is row `p` of the arrays. -/
theorem tile4 (A : Cert.Spec.Mat) (SI : Cert.Spec.Col) (b : Cert.Spec.Bias) (SO : Cert.Spec.Col) (W : Cert.Spec.Wt)
    (x0 : Vec Ideal S5000x128 .f32) (x1 : Vec Ideal S5000x1 .f32) (x2 : Vec Ideal S128 .f32)
    (x3 : Vec Ideal S5000x1 .f32) (x4 : Vec Ideal S128x128 .f32)
    (i : S50000x128.Idx) (r : Fin 5000) (q : Fin 128) (p : Fin 50000) (hi : i = ix2 p q)
    (h0 : ∀ k : Fin 128, x0 (ix2 r k) = A (ix2 p k))
    (h1 : x1 (ix2 r (0 : Fin 1)) = SI (ix2 p (0 : Fin 1)))
    (h2 : ∀ k : Fin 128, x2 (ix1 k) = b (ix1 k))
    (h3 : x3 (ix2 r (0 : Fin 1)) = SO (ix2 p (0 : Fin 1)))
    (h4 : ∀ k : Fin 128, x4 (ix2 k q) = W (ix2 k q)) :
    k4_pay1 (F := Ideal) x0 x1 x2 x3 x4 (ix2 r q) = Cert.Spec.finishPrescale A SI b SO W i := by
  subst hi
  rw [Cert.KernelIdeal.Tile.k4_pay1_apply, Cert.Spec.finishPrescale_apply]
  refine Finset.sum_congr rfl fun k _ => ?_
  rw [h0 k, h1, h2 k, h3, h4 k]

/-- The index maps over the ten tiles: the row-tiled operands and the result move with the tile, the weights and the
    bias stay. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 1) = 0
    ∧ win4_3.index t (0 : Fin 2) = t.val
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

theorem idxOut4 (t : Fin cfg4.N) : win4_5.index t (0 : Fin 2) = t.val ∧ win4_5.index t (1 : Fin 2) = 0 := by
  obtain ⟨-, -, -, -, -, -, -, -, -, eo0, eo1⟩ := idx4 t
  exact ⟨eo0, eo1⟩

/-- What tile `t` writes back is tile `t` of the whole-array function. -/
theorem flushed4 (c : Dev nD) (t : Fin cfg4.N) :
    (dat4 V c).flushed 5 t = ((cfg4.win 5).blk t).view.read (Elt Ideal)
      (Cert.Spec.finishPrescale (V c main_v55) (V c main_v12) (V c main_arg9) (V c main_v10) (V c main_arg10)) := by
  show (cfg4.win 5).cut (grid4.coords t) ((dat4 V c).after 5 t) = _
  rw [after4_5]
  unfold out4_5
  rw [View.canon_unit_zero Cert.KernelIdeal.Tile.origin2]
  simp only [View.ld_unit_zero (S := S5000x128) Cert.KernelIdeal.Tile.origin2, View.ld_unit_zero (S := S5000x1) Cert.KernelIdeal.Tile.origin2, View.ld_unit_zero (S := S128) Cert.KernelIdeal.Tile.origin1, View.ld_unit_zero (S := S128x128) Cert.KernelIdeal.Tile.origin2]
  obtain ⟨e00, e01, e10, e11, e20, e30, e31, e40, e41, eo0, eo1⟩ := idx4 t
  have ht : t.val < 10 := t.isLt
  funext j
  obtain ⟨r, q, rfl⟩ : ∃ (r : Fin 5000) (q : Fin 128), j = ix2 r q := ⟨j 0, j 1, eq_ix2 j⟩
  have hr : r.val < 5000 := r.isLt
  refine tile4 (V c main_v55) (V c main_v12) (V c main_arg9) (V c main_v10) (V c main_arg10) (iblk4 V c 0 t) (iblk4 V c 1 t) (iblk4 V c 2 t) (iblk4 V c 3 t) (iblk4 V c 4 t)
    _ r q ⟨t.val * 5000 + r.val, by omega⟩ ?_ (fun k => ?_) ?_ (fun k => ?_) ?_ (fun k => ?_)
  · funext a; apply Fin.ext
    match a with
    | ⟨0, _⟩ => show win4_5.index t (0 : Fin 2) * 5000 + 1 * r.val = t.val * 5000 + r.val; omega
    | ⟨1, _⟩ => show win4_5.index t (1 : Fin 2) * 128 + 1 * q.val = q.val; omega
  · show V c main_v55 (((cfg4.win 0).blk t).view.emb (ix2 r k)) = V c main_v55 (ix2 ⟨t.val * 5000 + r.val, by omega⟩ k)
    refine congrArg (V c main_v55) ?_
    funext a; apply Fin.ext
    match a with
    | ⟨0, _⟩ => show win4_0.index t (0 : Fin 2) * 5000 + 1 * r.val = t.val * 5000 + r.val; omega
    | ⟨1, _⟩ => show win4_0.index t (1 : Fin 2) * 128 + 1 * k.val = k.val; omega
  · show V c main_v12 (((cfg4.win 1).blk t).view.emb (ix2 r (0 : Fin 1))) = V c main_v12 (ix2 ⟨t.val * 5000 + r.val, by omega⟩ (0 : Fin 1))
    refine congrArg (V c main_v12) ?_
    funext a; apply Fin.ext
    match a with
    | ⟨0, _⟩ => show win4_1.index t (0 : Fin 2) * 5000 + 1 * r.val = t.val * 5000 + r.val; omega
    | ⟨1, _⟩ => show win4_1.index t (1 : Fin 2) * 1 + 1 * 0 = 0; omega
  · show V c main_arg9 (((cfg4.win 2).blk t).view.emb (ix1 k)) = V c main_arg9 (ix1 k)
    refine congrArg (V c main_arg9) ?_
    funext a; apply Fin.ext
    match a with
    | ⟨0, _⟩ => show win4_2.index t (0 : Fin 1) * 128 + 1 * k.val = k.val; omega
  · show V c main_v10 (((cfg4.win 3).blk t).view.emb (ix2 r (0 : Fin 1))) = V c main_v10 (ix2 ⟨t.val * 5000 + r.val, by omega⟩ (0 : Fin 1))
    refine congrArg (V c main_v10) ?_
    funext a; apply Fin.ext
    match a with
    | ⟨0, _⟩ => show win4_3.index t (0 : Fin 2) * 5000 + 1 * r.val = t.val * 5000 + r.val; omega
    | ⟨1, _⟩ => show win4_3.index t (1 : Fin 2) * 1 + 1 * 0 = 0; omega
  · show V c main_arg10 (((cfg4.win 4).blk t).view.emb (ix2 k q)) = V c main_arg10 (ix2 k q)
    refine congrArg (V c main_arg10) ?_
    funext a; apply Fin.ext
    match a with
    | ⟨0, _⟩ => show win4_4.index t (0 : Fin 2) * 128 + 1 * k.val = k.val; omega
    | ⟨1, _⟩ => show win4_4.index t (1 : Fin 2) * 128 + 1 * q.val = q.val; omega

/-- An index is in tile `t`'s rows and columns exactly when each coordinate is in the tile's range. -/
theorem mem_blk4 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v56).slice (win4_5.rect t)).set ↔ _
  rw [View.set_slice_whole, Rect.mem_set_unit]
  exact Iff.rfl

/-- Row `p` lies in tile `p / 5000`. -/
theorem cover4 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ : ∃ t : Fin cfg4.N, t.val = (i 0).val / 5000 := ⟨(⟨(i 0).val / 5000, by omega⟩ : Fin 10), rfl⟩
  obtain ⟨eo0, eo1⟩ := idxOut4 t
  refine ⟨t, flush4_5 t, ?_⟩
  rw [mem_blk4]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 128 ≤ (i 1).val ∧ (i 1).val < win4_5.index t (1 : Fin 2) * 128 + 128
    omega

/-- Region 4 leaves its result array at `finishPrescale` of the arrays it found. -/
theorem final4 (c : Dev nD) : (dat4 V c).arrAt 5 cfg4.N = Cert.Spec.finishPrescale (V c main_v55) (V c main_v12) (V c main_arg9) (V c main_v10) (V c main_arg10) :=
  (dat4 V c).arrAt_eq_of_cover 5 _ (fun t _ => flushed4 V c t) cover4

end Cert.KernelIdeal.Whole

end
-- ==== Proof.Region5.lean ====
/-
  Region 5 (finish the fourth convolution and join the residual branch), from row tiles to the whole array: tile `t` of the ten holds rows `5000 t … 5000 t + 4999`, the
  tiles cover every row, so the region leaves its result array at `finishCombine` of the arrays it found.
-/
import proofs.«156565_j45311904973176_1_alg».proof.Proof.Gen.KernelIdeal.Frame
import proofs.«156565_j45311904973176_1_alg».proof.Proof.Tile
import proofs.«156565_j45311904973176_1_alg».proof.Proof.Spec

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One tile's entry against the whole array's: row `r` of the tile is row `p` of the arrays. -/
theorem tile5 (A : Cert.Spec.Mat) (SI : Cert.Spec.Col) (b : Cert.Spec.Bias) (R : Cert.Spec.Mat)
    (x0 : Vec Ideal S5000x128 .f32) (x1 : Vec Ideal S5000x1 .f32) (x2 : Vec Ideal S128 .f32) (x3 : Vec Ideal S5000x128 .f32)
    (i : S50000x128.Idx) (r : Fin 5000) (q : Fin 128) (p : Fin 50000) (hi : i = ix2 p q)
    (h0 : x0 (ix2 r q) = A (ix2 p q))
    (h1 : x1 (ix2 r (0 : Fin 1)) = SI (ix2 p (0 : Fin 1)))
    (h2 : x2 (ix1 q) = b (ix1 q))
    (h3 : x3 (ix2 r q) = R (ix2 p q)) :
    k5_pay1 (F := Ideal) x0 x1 x2 x3 (ix2 r q) = Cert.Spec.finishCombine A SI b R i := by
  subst hi
  rw [Cert.KernelIdeal.Tile.k5_pay1_apply, Cert.Spec.finishCombine_apply, h0, h1, h2, h3]

/-- The index maps over the ten tiles: the row-tiled operands and the result move with the tile, the weights and the
    bias stay. -/
theorem idx5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 1) = 0
    ∧ win5_3.index t (0 : Fin 2) = t.val
    ∧ win5_3.index t (1 : Fin 2) = 0
    ∧ win5_4.index t (0 : Fin 2) = t.val
    ∧ win5_4.index t (1 : Fin 2) = 0 :=
  (by decide +kernel : ∀ t : Fin grid5.N, _)

theorem idxOut5 (t : Fin cfg5.N) : win5_4.index t (0 : Fin 2) = t.val ∧ win5_4.index t (1 : Fin 2) = 0 := by
  obtain ⟨-, -, -, -, -, -, -, eo0, eo1⟩ := idx5 t
  exact ⟨eo0, eo1⟩

/-- What tile `t` writes back is tile `t` of the whole-array function. -/
theorem flushed5 (c : Dev nD) (t : Fin cfg5.N) :
    (dat5 V c).flushed 4 t = ((cfg5.win 4).blk t).view.read (Elt Ideal)
      (Cert.Spec.finishCombine (V c main_v69) (V c main_v12) (V c main_arg11) (V c main_v13)) := by
  show (cfg5.win 4).cut (grid5.coords t) ((dat5 V c).after 4 t) = _
  rw [after5_4]
  unfold out5_4
  rw [View.canon_unit_zero Cert.KernelIdeal.Tile.origin2]
  simp only [View.ld_unit_zero (S := S5000x128) Cert.KernelIdeal.Tile.origin2, View.ld_unit_zero (S := S5000x1) Cert.KernelIdeal.Tile.origin2, View.ld_unit_zero (S := S128) Cert.KernelIdeal.Tile.origin1]
  obtain ⟨e00, e01, e10, e11, e20, e30, e31, eo0, eo1⟩ := idx5 t
  have ht : t.val < 10 := t.isLt
  funext j
  obtain ⟨r, q, rfl⟩ : ∃ (r : Fin 5000) (q : Fin 128), j = ix2 r q := ⟨j 0, j 1, eq_ix2 j⟩
  have hr : r.val < 5000 := r.isLt
  refine tile5 (V c main_v69) (V c main_v12) (V c main_arg11) (V c main_v13) (iblk5 V c 0 t) (iblk5 V c 1 t) (iblk5 V c 2 t) (iblk5 V c 3 t)
    _ r q ⟨t.val * 5000 + r.val, by omega⟩ ?_ ?_ ?_ ?_ ?_
  · funext a; apply Fin.ext
    match a with
    | ⟨0, _⟩ => show win5_4.index t (0 : Fin 2) * 5000 + 1 * r.val = t.val * 5000 + r.val; omega
    | ⟨1, _⟩ => show win5_4.index t (1 : Fin 2) * 128 + 1 * q.val = q.val; omega
  · show V c main_v69 (((cfg5.win 0).blk t).view.emb (ix2 r q)) = V c main_v69 (ix2 ⟨t.val * 5000 + r.val, by omega⟩ q)
    refine congrArg (V c main_v69) ?_
    funext a; apply Fin.ext
    match a with
    | ⟨0, _⟩ => show win5_0.index t (0 : Fin 2) * 5000 + 1 * r.val = t.val * 5000 + r.val; omega
    | ⟨1, _⟩ => show win5_0.index t (1 : Fin 2) * 128 + 1 * q.val = q.val; omega
  · show V c main_v12 (((cfg5.win 1).blk t).view.emb (ix2 r (0 : Fin 1))) = V c main_v12 (ix2 ⟨t.val * 5000 + r.val, by omega⟩ (0 : Fin 1))
    refine congrArg (V c main_v12) ?_
    funext a; apply Fin.ext
    match a with
    | ⟨0, _⟩ => show win5_1.index t (0 : Fin 2) * 5000 + 1 * r.val = t.val * 5000 + r.val; omega
    | ⟨1, _⟩ => show win5_1.index t (1 : Fin 2) * 1 + 1 * 0 = 0; omega
  · show V c main_arg11 (((cfg5.win 2).blk t).view.emb (ix1 q)) = V c main_arg11 (ix1 q)
    refine congrArg (V c main_arg11) ?_
    funext a; apply Fin.ext
    match a with
    | ⟨0, _⟩ => show win5_2.index t (0 : Fin 1) * 128 + 1 * q.val = q.val; omega
  · show V c main_v13 (((cfg5.win 3).blk t).view.emb (ix2 r q)) = V c main_v13 (ix2 ⟨t.val * 5000 + r.val, by omega⟩ q)
    refine congrArg (V c main_v13) ?_
    funext a; apply Fin.ext
    match a with
    | ⟨0, _⟩ => show win5_3.index t (0 : Fin 2) * 5000 + 1 * r.val = t.val * 5000 + r.val; omega
    | ⟨1, _⟩ => show win5_3.index t (1 : Fin 2) * 128 + 1 * q.val = q.val; omega

/-- An index is in tile `t`'s rows and columns exactly when each coordinate is in the tile's range. -/
theorem mem_blk5 (t : Fin cfg5.N) (i : S50000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v70).slice (win5_4.rect t)).set ↔ _
  rw [View.set_slice_whole, Rect.mem_set_unit]
  exact Iff.rfl

/-- Row `p` lies in tile `p / 5000`. -/
theorem cover5 (i : S50000x128.Idx) : ∃ t : Fin cfg5.N, (cfg5.win 4).flush t = true ∧ i ∈ ((cfg5.win 4).blk t).view.set := by
  have hi0 : (i 0).val < 50000 := (i 0).isLt
  have hi1 : (i 1).val < 128 := (i 1).isLt
  obtain ⟨t, ht⟩ : ∃ t : Fin cfg5.N, t.val = (i 0).val / 5000 := ⟨(⟨(i 0).val / 5000, by omega⟩ : Fin 10), rfl⟩
  obtain ⟨eo0, eo1⟩ := idxOut5 t
  refine ⟨t, flush5_4 t, ?_⟩
  rw [mem_blk5]
  intro a
  match a with
  | ⟨0, _⟩ =>
    show win5_4.index t (0 : Fin 2) * 5000 ≤ (i 0).val ∧ (i 0).val < win5_4.index t (0 : Fin 2) * 5000 + 5000
    omega
  | ⟨1, _⟩ =>
    show win5_4.index t (1 : Fin 2) * 128 ≤ (i 1).val ∧ (i 1).val < win5_4.index t (1 : Fin 2) * 128 + 128
    omega

/-- Region 5 leaves its result array at `finishCombine` of the arrays it found. -/
theorem final5 (c : Dev nD) : (dat5 V c).arrAt 4 cfg5.N = Cert.Spec.finishCombine (V c main_v69) (V c main_v12) (V c main_arg11) (V c main_v13) :=
  (dat5 V c).arrAt_eq_of_cover 4 _ (fun t _ => flushed5 V c t) cover5

end Cert.KernelIdeal.Whole

end
-- ==== Proof.Region6.lean ====
/-
  Region 6 (the projection to sixteen classes), from row tiles to the whole array: tile `t` of the ten holds rows `5000 t … 5000 t + 4999`, the
  tiles cover every row, so the region leaves its result array at `project` of the arrays it found.
-/
import proofs.«156565_j45311904973176_1_alg».proof.Proof.Gen.KernelIdeal.Frame
import proofs.«156565_j45311904973176_1_alg».proof.Proof.Tile
import proofs.«156565_j45311904973176_1_alg».proof.Proof.Spec

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- One tile's entry against the whole array's: row `r` of the tile is row `p` of the arrays. -/
theorem tile6 (A : Cert.Spec.Mat) (W : FVec Ideal Cert.ReferenceIdeal.S128x16 .f32) (b : FVec Ideal Cert.ReferenceIdeal.S16 .f32)
    (x0 : Vec Ideal S5000x128 .f32) (x1 : Vec Ideal S128x16 .f32) (x2 : Vec Ideal S16 .f32)
    (i : S50000x16.Idx) (r : Fin 5000) (q : Fin 16) (p : Fin 50000) (hi : i = ix2 p q)
    (h0 : ∀ k : Fin 128, x0 (ix2 r k) = A (ix2 p k))
    (h1 : ∀ k : Fin 128, x1 (ix2 k q) = W (ix2 k q))
    (h2 : x2 (ix1 q) = b (ix1 q)) :
    k6_pay1 (F := Ideal) x0 x1 x2 (ix2 r q) = Cert.Spec.project A W b i := by
  subst hi
  rw [Cert.KernelIdeal.Tile.k6_pay1_apply, Cert.Spec.project_apply, h2]
  refine congrArg (· + b (ix1 q)) (Finset.sum_congr rfl fun k _ => ?_)
  rw [h0 k, h1 k]

/-- The index maps over the ten tiles: the row-tiled operands and the result move with the tile, the weights and the
    bias stay. -/
theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 1) = 0
    ∧ win6_3.index t (0 : Fin 2) = t.val
    ∧ win6_3.index t (1 : Fin 2) = 0 :=
  (by decide +kernel : ∀ t : Fin grid6.N, _)

theorem idxOut6 (t : Fin cfg6.N) : win6_3.index t (0 : Fin 2) = t.val ∧ win6_3.index t (1 : Fin 2) = 0 := by
  obtain ⟨-, -, -, -, -, eo0, eo1⟩ := idx6 t
  exact ⟨eo0, eo1⟩

/-- What tile `t` writes back is tile `t` of the whole-array function. -/
theorem flushed6 (c : Dev nD) (t : Fin cfg6.N) :
    (dat6 V c).flushed 3 t = ((cfg6.win 3).blk t).view.read (Elt Ideal)
      (Cert.Spec.project (V c main_v70) (V c main_arg14) (V c main_arg15)) := by
  show (cfg6.win 3).cut (grid6.coords t) ((dat6 V c).after 3 t) = _
  rw [after6_3]
  unfold out6_3
  rw [View.canon_unit_zero Cert.KernelIdeal.Tile.origin2]
  simp only [View.ld_unit_zero (S := S5000x128) Cert.KernelIdeal.Tile.origin2, View.ld_unit_zero (S := S128x16) Cert.KernelIdeal.Tile.origin2, View.ld_unit_zero (S := S16) Cert.KernelIdeal.Tile.origin1]
  obtain ⟨e00, e01, e10, e11, e20, eo0, eo1⟩ := idx6 t
  have ht : t.val < 10 := t.isLt
  funext j
  obtain ⟨r, q, rfl⟩ : ∃ (r : Fin 5000) (q : Fin 16), j = ix2 r q := ⟨j 0, j 1, eq_ix2 j⟩
  have hr : r.val < 5000 := r.isLt
  refine tile6 (V c main_v70) (V c main_arg14) (V c main_arg15) (iblk6 V c 0 t) (iblk6 V c 1 t) (iblk6 V c 2 t)
    _ r q ⟨t.val * 5000 + r.val, by omega⟩ ?_ (fun k => ?_) (fun k => ?_) ?_
  · funext a; apply Fin.ext
    match a with
    | ⟨0, _⟩ => show win6_3.index t (0 : Fin 2) * 5000 + 1 * r.val = t.val * 5000 + r.val; omega
    | ⟨1, _⟩ => show win6_3.index t (1 : Fin 2) * 16 + 1 * q.val = q.val; omega
  · show V c main_v70 (((cfg6.win 0).blk t).view.emb (ix2 r k)) = V c main_v70 (ix2 ⟨t.val * 5000 + r.val, by omega⟩ k)
    refine congrArg (V c main_v70) ?_
    funext a; apply Fin.ext
    match a with
    | ⟨0, _⟩ => show win6_0.index t (0 : Fin 2) * 5000 + 1 * r.val = t.val * 5000 + r.val; omega
    | ⟨1, _⟩ => show win6_0.index t (1 : Fin 2) * 128 + 1 * k.val = k.val; omega
  · show V c main_arg14 (((cfg6.win 1).blk t).view.emb (ix2 k q)) = V c main_arg14 (ix2 k q)
    refine congrArg (V c main_arg14) ?_
    funext a; apply Fin.ext
    match a with
    | ⟨0, _⟩ => show win6_1.index t (0 : Fin 2) * 128 + 1 * k.val = k.val; omega
    | ⟨1, _⟩ => show win6_1.index t (1 : Fin 2) * 16 + 1 * q.val = q.val; omega
  · show V c main_arg15 (((cfg6.win 2).blk t).view.emb (ix1 q)) = V c main_arg15 (ix1 q)
    refine congrArg (V c main_arg15) ?_
    funext a; apply Fin.ext
    match a with
    | ⟨0, _⟩ => show win6_2.index t (0 : Fin 1) * 16 + 1 * q.val = q.val; omega

/-- An index is in tile `t`'s rows and columns exactly when each coordinate is in the tile's range. -/
theorem mem_blk6 (t : Fin cfg6.N) (i : S50000x16.Idx) :
    i ∈ ((cfg6.win 3).blk t).view.set ↔ ∀ a : Fin 2, win6_3.index t a * S5000x16.size a ≤ (i a).val ∧ (i a).val < win6_3.index t a * S5000x16.size a + S5000x16.size a := by
  show i ∈ ((View.whole main_v71).slice (win6_3.rect t)).set ↔ _
  rw [View.set_slice_whole, Rect.mem_set_unit]
  exact Iff.rfl

/-- Row `p` lies in tile `p / 5000`. -/
theorem cover6 (i : S50000x16.Idx) : ∃ t : Fin cfg6.N, (cfg6.win 3).flush t = true ∧ i ∈ ((cfg6.win 3).blk t).view.set := by
  have hi0 : (i 0).val < 50000 := (i 0).isLt
  have hi1 : (i 1).val < 16 := (i 1).isLt
  obtain ⟨t, ht⟩ : ∃ t : Fin cfg6.N, t.val = (i 0).val / 5000 := ⟨(⟨(i 0).val / 5000, by omega⟩ : Fin 10), rfl⟩
  obtain ⟨eo0, eo1⟩ := idxOut6 t
  refine ⟨t, flush6_3 t, ?_⟩
  rw [mem_blk6]
  intro a
  match a with
  | ⟨0, _⟩ =>
    show win6_3.index t (0 : Fin 2) * 5000 ≤ (i 0).val ∧ (i 0).val < win6_3.index t (0 : Fin 2) * 5000 + 5000
    omega
  | ⟨1, _⟩ =>
    show win6_3.index t (1 : Fin 2) * 16 ≤ (i 1).val ∧ (i 1).val < win6_3.index t (1 : Fin 2) * 16 + 16
    omega

/-- Region 6 leaves its result array at `project` of the arrays it found. -/
theorem final6 (c : Dev nD) : (dat6 V c).arrAt 3 cfg6.N = Cert.Spec.project (V c main_v70) (V c main_arg14) (V c main_arg15) :=
  (dat6 V c).arrAt_eq_of_cover 3 _ (fun t _ => flushed6 V c t) cover6

end Cert.KernelIdeal.Whole

end
-- ==== Proof.Chain.lean ====
/-
  The tiled program's result as one function of its arguments.

  The run is a fold through sixteen segments.  At each boundary the buffers later segments read hold a known function
  of the argument arrays: a dense stage leaves its result array at the stage's whole-array function of the arrays it
  found and every other buffer as it was; a host stretch leaves the sparse stage of the previous result, and every
  other buffer as it was.  Followed from the launch to the return, the result buffer ends at the network of the sixteen
  arguments.
-/
import proofs.«156565_j45311904973176_1_alg».proof.Proof.Gen.KernelIdeal.Frame
import proofs.«156565_j45311904973176_1_alg».proof.Proof.HostSteps
import proofs.«156565_j45311904973176_1_alg».proof.Proof.Region0
import proofs.«156565_j45311904973176_1_alg».proof.Proof.Region1
import proofs.«156565_j45311904973176_1_alg».proof.Proof.Region2
import proofs.«156565_j45311904973176_1_alg».proof.Proof.Region3
import proofs.«156565_j45311904973176_1_alg».proof.Proof.Region4
import proofs.«156565_j45311904973176_1_alg».proof.Proof.Region5
import proofs.«156565_j45311904973176_1_alg».proof.Proof.Region6

set_option maxRecDepth 16384

noncomputable section

namespace Cert.KernelIdeal.Whole

open Idealize.ShloMosaic Idealize.ShloMosaic.TcCoe Idealize.SL.Sem Idealize.ShloMosaic.StableHlo
open Idealize.ShloMosaic.Pipeline (Dat Cfg Window)
open Cert.KernelIdeal Cert.KernelIdeal.Gen

variable (m : (ℓ : Loc nD τ sig) → Buf (Elt Ideal) ℓ) (ρ : Dev nD → PrngReg) (c : Dev nD)

/-! ## The values: the argument arrays, and what each stage makes of them -/

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)
abbrev a15 := m ((c : Thread nD τ).loc main_arg15)
/-- The two columns of inverse square roots of the clipped degrees. -/
abbrev sOut := Cert.Spec.col (Cert.Spec.invSqrtDeg (a0 m c))
abbrev sIn := Cert.Spec.col (Cert.Spec.invSqrtDeg (a1 m c))
/-- The residual branch. -/
abbrev resid := Cert.Spec.affine (a2 m c) (a12 m c) (a13 m c)
/-- The four convolutions: each dense stage's result and its sparse stage. -/
abbrev hid1 := Cert.Spec.prescale (a2 m c) (sOut m c) (a4 m c)
abbrev agg1 := Cert.Spec.aggregate (hid1 m c) (a0 m c) (a1 m c) (a3 m c)
abbrev hid2 := Cert.Spec.finishPrescale (agg1 m c) (sIn m c) (a5 m c) (sOut m c) (a6 m c)
abbrev agg2 := Cert.Spec.aggregate (hid2 m c) (a0 m c) (a1 m c) (a3 m c)
abbrev hid3 := Cert.Spec.finishPrescale (agg2 m c) (sIn m c) (a7 m c) (sOut m c) (a8 m c)
abbrev agg3 := Cert.Spec.aggregate (hid3 m c) (a0 m c) (a1 m c) (a3 m c)
abbrev hid4 := Cert.Spec.finishPrescale (agg3 m c) (sIn m c) (a9 m c) (sOut m c) (a10 m c)
abbrev agg4 := Cert.Spec.aggregate (hid4 m c) (a0 m c) (a1 m c) (a3 m c)
/-- The last convolution joined with the residual branch, and its projection. -/
abbrev hidden := Cert.Spec.finishCombine (agg4 m c) (sIn m c) (a11 m c) (resid m c)
abbrev logits := Cert.Spec.project (hidden m c) (a14 m c) (a15 m c)

/-! ## At the first dense stage's entry -/

theorem at5_main_arg0 : W5 m ρ c (Proc.devRef .tc main_arg0) = a0 m c := pre_main_arg0 (W0 m ρ c)
theorem at5_main_arg1 : W5 m ρ c (Proc.devRef .tc main_arg1) = a1 m c := pre_main_arg1 (W0 m ρ c)
theorem at5_main_arg2 : W5 m ρ c (Proc.devRef .tc main_arg2) = a2 m c := pre_main_arg2 (W0 m ρ c)
theorem at5_main_arg3 : W5 m ρ c (Proc.devRef .tc main_arg3) = a3 m c := pre_main_arg3 (W0 m ρ c)
theorem at5_main_arg4 : W5 m ρ c (Proc.devRef .tc main_arg4) = a4 m c := pre_main_arg4 (W0 m ρ c)
theorem at5_main_arg5 : W5 m ρ c (Proc.devRef .tc main_arg5) = a5 m c := pre_main_arg5 (W0 m ρ c)
theorem at5_main_arg6 : W5 m ρ c (Proc.devRef .tc main_arg6) = a6 m c := pre_main_arg6 (W0 m ρ c)
theorem at5_main_arg7 : W5 m ρ c (Proc.devRef .tc main_arg7) = a7 m c := pre_main_arg7 (W0 m ρ c)
theorem at5_main_arg8 : W5 m ρ c (Proc.devRef .tc main_arg8) = a8 m c := pre_main_arg8 (W0 m ρ c)
theorem at5_main_arg9 : W5 m ρ c (Proc.devRef .tc main_arg9) = a9 m c := pre_main_arg9 (W0 m ρ c)
theorem at5_main_arg10 : W5 m ρ c (Proc.devRef .tc main_arg10) = a10 m c := pre_main_arg10 (W0 m ρ c)
theorem at5_main_arg11 : W5 m ρ c (Proc.devRef .tc main_arg11) = a11 m c := pre_main_arg11 (W0 m ρ c)
theorem at5_main_arg12 : W5 m ρ c (Proc.devRef .tc main_arg12) = a12 m c := pre_main_arg12 (W0 m ρ c)
theorem at5_main_arg13 : W5 m ρ c (Proc.devRef .tc main_arg13) = a13 m c := pre_main_arg13 (W0 m ρ c)
theorem at5_main_arg14 : W5 m ρ c (Proc.devRef .tc main_arg14) = a14 m c := pre_main_arg14 (W0 m ρ c)
theorem at5_main_arg15 : W5 m ρ c (Proc.devRef .tc main_arg15) = a15 m c := pre_main_arg15 (W0 m ρ c)
theorem at5_main_v10 : W5 m ρ c (Proc.devRef .tc main_v10) = sOut m c := pre_v10 (W0 m ρ c)
theorem at5_main_v12 : W5 m ρ c (Proc.devRef .tc main_v12) = sIn m c := pre_v12 (W0 m ρ c)

/-! ## After region 0 -/

theorem at6_main_v13 : W6 m ρ c (Proc.devRef .tc main_v13) = resid m c := by
  refine (W6_arr m ρ c 3).trans ((final0 (V5 m ρ) c).trans ?_)
  rw [show V5 m ρ c main_arg2 = _ from at5_main_arg2 m ρ c,
    show V5 m ρ c main_arg12 = _ from at5_main_arg12 m ρ c,
    show V5 m ρ c main_arg13 = _ from at5_main_arg13 m ρ c]
theorem at6_main_arg0 : W6 m ρ c (Proc.devRef .tc main_arg0) = a0 m c := (W6_of_ne m ρ c main_arg0 (by decide)).trans (at5_main_arg0 m ρ c)
theorem at6_main_arg1 : W6 m ρ c (Proc.devRef .tc main_arg1) = a1 m c := (W6_of_ne m ρ c main_arg1 (by decide)).trans (at5_main_arg1 m ρ c)
theorem at6_main_arg2 : W6 m ρ c (Proc.devRef .tc main_arg2) = a2 m c :=
  ((W6_arr m ρ c 0).trans (((dat0 (V5 m ρ) c).arrAt_in 0 rfl _).trans (A_eq0 (V5 m ρ) c 0))).trans (at5_main_arg2 m ρ c)
theorem at6_main_arg3 : W6 m ρ c (Proc.devRef .tc main_arg3) = a3 m c := (W6_of_ne m ρ c main_arg3 (by decide)).trans (at5_main_arg3 m ρ c)
theorem at6_main_arg4 : W6 m ρ c (Proc.devRef .tc main_arg4) = a4 m c := (W6_of_ne m ρ c main_arg4 (by decide)).trans (at5_main_arg4 m ρ c)
theorem at6_main_arg5 : W6 m ρ c (Proc.devRef .tc main_arg5) = a5 m c := (W6_of_ne m ρ c main_arg5 (by decide)).trans (at5_main_arg5 m ρ c)
theorem at6_main_arg6 : W6 m ρ c (Proc.devRef .tc main_arg6) = a6 m c := (W6_of_ne m ρ c main_arg6 (by decide)).trans (at5_main_arg6 m ρ c)
theorem at6_main_arg7 : W6 m ρ c (Proc.devRef .tc main_arg7) = a7 m c := (W6_of_ne m ρ c main_arg7 (by decide)).trans (at5_main_arg7 m ρ c)
theorem at6_main_arg8 : W6 m ρ c (Proc.devRef .tc main_arg8) = a8 m c := (W6_of_ne m ρ c main_arg8 (by decide)).trans (at5_main_arg8 m ρ c)
theorem at6_main_arg9 : W6 m ρ c (Proc.devRef .tc main_arg9) = a9 m c := (W6_of_ne m ρ c main_arg9 (by decide)).trans (at5_main_arg9 m ρ c)
theorem at6_main_arg10 : W6 m ρ c (Proc.devRef .tc main_arg10) = a10 m c := (W6_of_ne m ρ c main_arg10 (by decide)).trans (at5_main_arg10 m ρ c)
theorem at6_main_arg11 : W6 m ρ c (Proc.devRef .tc main_arg11) = a11 m c := (W6_of_ne m ρ c main_arg11 (by decide)).trans (at5_main_arg11 m ρ c)
theorem at6_main_arg14 : W6 m ρ c (Proc.devRef .tc main_arg14) = a14 m c := (W6_of_ne m ρ c main_arg14 (by decide)).trans (at5_main_arg14 m ρ c)
theorem at6_main_arg15 : W6 m ρ c (Proc.devRef .tc main_arg15) = a15 m c := (W6_of_ne m ρ c main_arg15 (by decide)).trans (at5_main_arg15 m ρ c)
theorem at6_main_v10 : W6 m ρ c (Proc.devRef .tc main_v10) = sOut m c := (W6_of_ne m ρ c main_v10 (by decide)).trans (at5_main_v10 m ρ c)
theorem at6_main_v12 : W6 m ρ c (Proc.devRef .tc main_v12) = sIn m c := (W6_of_ne m ρ c main_v12 (by decide)).trans (at5_main_v12 m ρ c)

/-! ## After region 1 -/

theorem at7_main_v14 : W7 m ρ c (Proc.devRef .tc main_v14) = hid1 m c := by
  refine (W7_arr m ρ c 3).trans ((final1 (V6 m ρ) c).trans ?_)
  rw [show V6 m ρ c main_arg2 = _ from at6_main_arg2 m ρ c,
    show V6 m ρ c main_v10 = _ from at6_main_v10 m ρ c,
    show V6 m ρ c main_arg4 = _ from at6_main_arg4 m ρ c]
theorem at7_main_arg0 : W7 m ρ c (Proc.devRef .tc main_arg0) = a0 m c := (W7_of_ne m ρ c main_arg0 (by decide)).trans (at6_main_arg0 m ρ c)
theorem at7_main_arg1 : W7 m ρ c (Proc.devRef .tc main_arg1) = a1 m c := (W7_of_ne m ρ c main_arg1 (by decide)).trans (at6_main_arg1 m ρ c)
theorem at7_main_arg3 : W7 m ρ c (Proc.devRef .tc main_arg3) = a3 m c := (W7_of_ne m ρ c main_arg3 (by decide)).trans (at6_main_arg3 m ρ c)
theorem at7_main_arg5 : W7 m ρ c (Proc.devRef .tc main_arg5) = a5 m c := (W7_of_ne m ρ c main_arg5 (by decide)).trans (at6_main_arg5 m ρ c)
theorem at7_main_arg6 : W7 m ρ c (Proc.devRef .tc main_arg6) = a6 m c := (W7_of_ne m ρ c main_arg6 (by decide)).trans (at6_main_arg6 m ρ c)
theorem at7_main_arg7 : W7 m ρ c (Proc.devRef .tc main_arg7) = a7 m c := (W7_of_ne m ρ c main_arg7 (by decide)).trans (at6_main_arg7 m ρ c)
theorem at7_main_arg8 : W7 m ρ c (Proc.devRef .tc main_arg8) = a8 m c := (W7_of_ne m ρ c main_arg8 (by decide)).trans (at6_main_arg8 m ρ c)
theorem at7_main_arg9 : W7 m ρ c (Proc.devRef .tc main_arg9) = a9 m c := (W7_of_ne m ρ c main_arg9 (by decide)).trans (at6_main_arg9 m ρ c)
theorem at7_main_arg10 : W7 m ρ c (Proc.devRef .tc main_arg10) = a10 m c := (W7_of_ne m ρ c main_arg10 (by decide)).trans (at6_main_arg10 m ρ c)
theorem at7_main_arg11 : W7 m ρ c (Proc.devRef .tc main_arg11) = a11 m c := (W7_of_ne m ρ c main_arg11 (by decide)).trans (at6_main_arg11 m ρ c)
theorem at7_main_arg14 : W7 m ρ c (Proc.devRef .tc main_arg14) = a14 m c := (W7_of_ne m ρ c main_arg14 (by decide)).trans (at6_main_arg14 m ρ c)
theorem at7_main_arg15 : W7 m ρ c (Proc.devRef .tc main_arg15) = a15 m c := (W7_of_ne m ρ c main_arg15 (by decide)).trans (at6_main_arg15 m ρ c)
theorem at7_main_v10 : W7 m ρ c (Proc.devRef .tc main_v10) = sOut m c :=
  ((W7_arr m ρ c 1).trans (((dat1 (V6 m ρ) c).arrAt_in 1 rfl _).trans (A_eq1 (V6 m ρ) c 1))).trans (at6_main_v10 m ρ c)
theorem at7_main_v12 : W7 m ρ c (Proc.devRef .tc main_v12) = sIn m c := (W7_of_ne m ρ c main_v12 (by decide)).trans (at6_main_v12 m ρ c)
theorem at7_main_v13 : W7 m ρ c (Proc.devRef .tc main_v13) = resid m c := (W7_of_ne m ρ c main_v13 (by decide)).trans (at6_main_v13 m ρ c)

/-! ## After the stretch `hostOps2` -/

theorem at8_main_v27 : W8 m ρ c (Proc.devRef .tc main_v27) = agg1 m c := by
  refine (hostOps2_agg (W7 m ρ c)).trans ?_
  rw [at7_main_v14 m ρ c, at7_main_arg0 m ρ c, at7_main_arg1 m ρ c, at7_main_arg3 m ρ c]
theorem at8_main_arg0 : W8 m ρ c (Proc.devRef .tc main_arg0) = a0 m c := (hostOps2_main_arg0 (W7 m ρ c)).trans (at7_main_arg0 m ρ c)
theorem at8_main_arg1 : W8 m ρ c (Proc.devRef .tc main_arg1) = a1 m c := (hostOps2_main_arg1 (W7 m ρ c)).trans (at7_main_arg1 m ρ c)
theorem at8_main_arg3 : W8 m ρ c (Proc.devRef .tc main_arg3) = a3 m c := (hostOps2_main_arg3 (W7 m ρ c)).trans (at7_main_arg3 m ρ c)
theorem at8_main_arg5 : W8 m ρ c (Proc.devRef .tc main_arg5) = a5 m c := (hostOps2_main_arg5 (W7 m ρ c)).trans (at7_main_arg5 m ρ c)
theorem at8_main_arg6 : W8 m ρ c (Proc.devRef .tc main_arg6) = a6 m c := (hostOps2_main_arg6 (W7 m ρ c)).trans (at7_main_arg6 m ρ c)
theorem at8_main_arg7 : W8 m ρ c (Proc.devRef .tc main_arg7) = a7 m c := (hostOps2_main_arg7 (W7 m ρ c)).trans (at7_main_arg7 m ρ c)
theorem at8_main_arg8 : W8 m ρ c (Proc.devRef .tc main_arg8) = a8 m c := (hostOps2_main_arg8 (W7 m ρ c)).trans (at7_main_arg8 m ρ c)
theorem at8_main_arg9 : W8 m ρ c (Proc.devRef .tc main_arg9) = a9 m c := (hostOps2_main_arg9 (W7 m ρ c)).trans (at7_main_arg9 m ρ c)
theorem at8_main_arg10 : W8 m ρ c (Proc.devRef .tc main_arg10) = a10 m c := (hostOps2_main_arg10 (W7 m ρ c)).trans (at7_main_arg10 m ρ c)
theorem at8_main_arg11 : W8 m ρ c (Proc.devRef .tc main_arg11) = a11 m c := (hostOps2_main_arg11 (W7 m ρ c)).trans (at7_main_arg11 m ρ c)
theorem at8_main_arg14 : W8 m ρ c (Proc.devRef .tc main_arg14) = a14 m c := (hostOps2_main_arg14 (W7 m ρ c)).trans (at7_main_arg14 m ρ c)
theorem at8_main_arg15 : W8 m ρ c (Proc.devRef .tc main_arg15) = a15 m c := (hostOps2_main_arg15 (W7 m ρ c)).trans (at7_main_arg15 m ρ c)
theorem at8_main_v10 : W8 m ρ c (Proc.devRef .tc main_v10) = sOut m c := (hostOps2_main_v10 (W7 m ρ c)).trans (at7_main_v10 m ρ c)
theorem at8_main_v12 : W8 m ρ c (Proc.devRef .tc main_v12) = sIn m c := (hostOps2_main_v12 (W7 m ρ c)).trans (at7_main_v12 m ρ c)
theorem at8_main_v13 : W8 m ρ c (Proc.devRef .tc main_v13) = resid m c := (hostOps2_main_v13 (W7 m ρ c)).trans (at7_main_v13 m ρ c)

/-! ## After region 2 -/

theorem at9_main_v28 : W9 m ρ c (Proc.devRef .tc main_v28) = hid2 m c := by
  refine (W9_arr m ρ c 5).trans ((final2 (V8 m ρ) c).trans ?_)
  rw [show V8 m ρ c main_v27 = _ from at8_main_v27 m ρ c,
    show V8 m ρ c main_v12 = _ from at8_main_v12 m ρ c,
    show V8 m ρ c main_arg5 = _ from at8_main_arg5 m ρ c,
    show V8 m ρ c main_v10 = _ from at8_main_v10 m ρ c,
    show V8 m ρ c main_arg6 = _ from at8_main_arg6 m ρ c]
theorem at9_main_arg0 : W9 m ρ c (Proc.devRef .tc main_arg0) = a0 m c := (W9_of_ne m ρ c main_arg0 (by decide)).trans (at8_main_arg0 m ρ c)
theorem at9_main_arg1 : W9 m ρ c (Proc.devRef .tc main_arg1) = a1 m c := (W9_of_ne m ρ c main_arg1 (by decide)).trans (at8_main_arg1 m ρ c)
theorem at9_main_arg3 : W9 m ρ c (Proc.devRef .tc main_arg3) = a3 m c := (W9_of_ne m ρ c main_arg3 (by decide)).trans (at8_main_arg3 m ρ c)
theorem at9_main_arg7 : W9 m ρ c (Proc.devRef .tc main_arg7) = a7 m c := (W9_of_ne m ρ c main_arg7 (by decide)).trans (at8_main_arg7 m ρ c)
theorem at9_main_arg8 : W9 m ρ c (Proc.devRef .tc main_arg8) = a8 m c := (W9_of_ne m ρ c main_arg8 (by decide)).trans (at8_main_arg8 m ρ c)
theorem at9_main_arg9 : W9 m ρ c (Proc.devRef .tc main_arg9) = a9 m c := (W9_of_ne m ρ c main_arg9 (by decide)).trans (at8_main_arg9 m ρ c)
theorem at9_main_arg10 : W9 m ρ c (Proc.devRef .tc main_arg10) = a10 m c := (W9_of_ne m ρ c main_arg10 (by decide)).trans (at8_main_arg10 m ρ c)
theorem at9_main_arg11 : W9 m ρ c (Proc.devRef .tc main_arg11) = a11 m c := (W9_of_ne m ρ c main_arg11 (by decide)).trans (at8_main_arg11 m ρ c)
theorem at9_main_arg14 : W9 m ρ c (Proc.devRef .tc main_arg14) = a14 m c := (W9_of_ne m ρ c main_arg14 (by decide)).trans (at8_main_arg14 m ρ c)
theorem at9_main_arg15 : W9 m ρ c (Proc.devRef .tc main_arg15) = a15 m c := (W9_of_ne m ρ c main_arg15 (by decide)).trans (at8_main_arg15 m ρ c)
theorem at9_main_v10 : W9 m ρ c (Proc.devRef .tc main_v10) = sOut m c :=
  ((W9_arr m ρ c 3).trans (((dat2 (V8 m ρ) c).arrAt_in 3 rfl _).trans (A_eq2 (V8 m ρ) c 3))).trans (at8_main_v10 m ρ c)
theorem at9_main_v12 : W9 m ρ c (Proc.devRef .tc main_v12) = sIn m c :=
  ((W9_arr m ρ c 1).trans (((dat2 (V8 m ρ) c).arrAt_in 1 rfl _).trans (A_eq2 (V8 m ρ) c 1))).trans (at8_main_v12 m ρ c)
theorem at9_main_v13 : W9 m ρ c (Proc.devRef .tc main_v13) = resid m c := (W9_of_ne m ρ c main_v13 (by decide)).trans (at8_main_v13 m ρ c)

/-! ## After the stretch `hostOps3` -/

theorem at10_main_v41 : W10 m ρ c (Proc.devRef .tc main_v41) = agg2 m c := by
  refine (hostOps3_agg (W9 m ρ c)).trans ?_
  rw [at9_main_v28 m ρ c, at9_main_arg0 m ρ c, at9_main_arg1 m ρ c, at9_main_arg3 m ρ c]
theorem at10_main_arg0 : W10 m ρ c (Proc.devRef .tc main_arg0) = a0 m c := (hostOps3_main_arg0 (W9 m ρ c)).trans (at9_main_arg0 m ρ c)
theorem at10_main_arg1 : W10 m ρ c (Proc.devRef .tc main_arg1) = a1 m c := (hostOps3_main_arg1 (W9 m ρ c)).trans (at9_main_arg1 m ρ c)
theorem at10_main_arg3 : W10 m ρ c (Proc.devRef .tc main_arg3) = a3 m c := (hostOps3_main_arg3 (W9 m ρ c)).trans (at9_main_arg3 m ρ c)
theorem at10_main_arg7 : W10 m ρ c (Proc.devRef .tc main_arg7) = a7 m c := (hostOps3_main_arg7 (W9 m ρ c)).trans (at9_main_arg7 m ρ c)
theorem at10_main_arg8 : W10 m ρ c (Proc.devRef .tc main_arg8) = a8 m c := (hostOps3_main_arg8 (W9 m ρ c)).trans (at9_main_arg8 m ρ c)
theorem at10_main_arg9 : W10 m ρ c (Proc.devRef .tc main_arg9) = a9 m c := (hostOps3_main_arg9 (W9 m ρ c)).trans (at9_main_arg9 m ρ c)
theorem at10_main_arg10 : W10 m ρ c (Proc.devRef .tc main_arg10) = a10 m c := (hostOps3_main_arg10 (W9 m ρ c)).trans (at9_main_arg10 m ρ c)
theorem at10_main_arg11 : W10 m ρ c (Proc.devRef .tc main_arg11) = a11 m c := (hostOps3_main_arg11 (W9 m ρ c)).trans (at9_main_arg11 m ρ c)
theorem at10_main_arg14 : W10 m ρ c (Proc.devRef .tc main_arg14) = a14 m c := (hostOps3_main_arg14 (W9 m ρ c)).trans (at9_main_arg14 m ρ c)
theorem at10_main_arg15 : W10 m ρ c (Proc.devRef .tc main_arg15) = a15 m c := (hostOps3_main_arg15 (W9 m ρ c)).trans (at9_main_arg15 m ρ c)
theorem at10_main_v10 : W10 m ρ c (Proc.devRef .tc main_v10) = sOut m c := (hostOps3_main_v10 (W9 m ρ c)).trans (at9_main_v10 m ρ c)
theorem at10_main_v12 : W10 m ρ c (Proc.devRef .tc main_v12) = sIn m c := (hostOps3_main_v12 (W9 m ρ c)).trans (at9_main_v12 m ρ c)
theorem at10_main_v13 : W10 m ρ c (Proc.devRef .tc main_v13) = resid m c := (hostOps3_main_v13 (W9 m ρ c)).trans (at9_main_v13 m ρ c)

/-! ## After region 3 -/

theorem at11_main_v42 : W11 m ρ c (Proc.devRef .tc main_v42) = hid3 m c := by
  refine (W11_arr m ρ c 5).trans ((final3 (V10 m ρ) c).trans ?_)
  rw [show V10 m ρ c main_v41 = _ from at10_main_v41 m ρ c,
    show V10 m ρ c main_v12 = _ from at10_main_v12 m ρ c,
    show V10 m ρ c main_arg7 = _ from at10_main_arg7 m ρ c,
    show V10 m ρ c main_v10 = _ from at10_main_v10 m ρ c,
    show V10 m ρ c main_arg8 = _ from at10_main_arg8 m ρ c]
theorem at11_main_arg0 : W11 m ρ c (Proc.devRef .tc main_arg0) = a0 m c := (W11_of_ne m ρ c main_arg0 (by decide)).trans (at10_main_arg0 m ρ c)
theorem at11_main_arg1 : W11 m ρ c (Proc.devRef .tc main_arg1) = a1 m c := (W11_of_ne m ρ c main_arg1 (by decide)).trans (at10_main_arg1 m ρ c)
theorem at11_main_arg3 : W11 m ρ c (Proc.devRef .tc main_arg3) = a3 m c := (W11_of_ne m ρ c main_arg3 (by decide)).trans (at10_main_arg3 m ρ c)
theorem at11_main_arg9 : W11 m ρ c (Proc.devRef .tc main_arg9) = a9 m c := (W11_of_ne m ρ c main_arg9 (by decide)).trans (at10_main_arg9 m ρ c)
theorem at11_main_arg10 : W11 m ρ c (Proc.devRef .tc main_arg10) = a10 m c := (W11_of_ne m ρ c main_arg10 (by decide)).trans (at10_main_arg10 m ρ c)
theorem at11_main_arg11 : W11 m ρ c (Proc.devRef .tc main_arg11) = a11 m c := (W11_of_ne m ρ c main_arg11 (by decide)).trans (at10_main_arg11 m ρ c)
theorem at11_main_arg14 : W11 m ρ c (Proc.devRef .tc main_arg14) = a14 m c := (W11_of_ne m ρ c main_arg14 (by decide)).trans (at10_main_arg14 m ρ c)
theorem at11_main_arg15 : W11 m ρ c (Proc.devRef .tc main_arg15) = a15 m c := (W11_of_ne m ρ c main_arg15 (by decide)).trans (at10_main_arg15 m ρ c)
theorem at11_main_v10 : W11 m ρ c (Proc.devRef .tc main_v10) = sOut m c :=
  ((W11_arr m ρ c 3).trans (((dat3 (V10 m ρ) c).arrAt_in 3 rfl _).trans (A_eq3 (V10 m ρ) c 3))).trans (at10_main_v10 m ρ c)
theorem at11_main_v12 : W11 m ρ c (Proc.devRef .tc main_v12) = sIn m c :=
  ((W11_arr m ρ c 1).trans (((dat3 (V10 m ρ) c).arrAt_in 1 rfl _).trans (A_eq3 (V10 m ρ) c 1))).trans (at10_main_v12 m ρ c)
theorem at11_main_v13 : W11 m ρ c (Proc.devRef .tc main_v13) = resid m c := (W11_of_ne m ρ c main_v13 (by decide)).trans (at10_main_v13 m ρ c)

/-! ## After the stretch `hostOps4` -/

theorem at12_main_v55 : W12 m ρ c (Proc.devRef .tc main_v55) = agg3 m c := by
  refine (hostOps4_agg (W11 m ρ c)).trans ?_
  rw [at11_main_v42 m ρ c, at11_main_arg0 m ρ c, at11_main_arg1 m ρ c, at11_main_arg3 m ρ c]
theorem at12_main_arg0 : W12 m ρ c (Proc.devRef .tc main_arg0) = a0 m c := (hostOps4_main_arg0 (W11 m ρ c)).trans (at11_main_arg0 m ρ c)
theorem at12_main_arg1 : W12 m ρ c (Proc.devRef .tc main_arg1) = a1 m c := (hostOps4_main_arg1 (W11 m ρ c)).trans (at11_main_arg1 m ρ c)
theorem at12_main_arg3 : W12 m ρ c (Proc.devRef .tc main_arg3) = a3 m c := (hostOps4_main_arg3 (W11 m ρ c)).trans (at11_main_arg3 m ρ c)
theorem at12_main_arg9 : W12 m ρ c (Proc.devRef .tc main_arg9) = a9 m c := (hostOps4_main_arg9 (W11 m ρ c)).trans (at11_main_arg9 m ρ c)
theorem at12_main_arg10 : W12 m ρ c (Proc.devRef .tc main_arg10) = a10 m c := (hostOps4_main_arg10 (W11 m ρ c)).trans (at11_main_arg10 m ρ c)
theorem at12_main_arg11 : W12 m ρ c (Proc.devRef .tc main_arg11) = a11 m c := (hostOps4_main_arg11 (W11 m ρ c)).trans (at11_main_arg11 m ρ c)
theorem at12_main_arg14 : W12 m ρ c (Proc.devRef .tc main_arg14) = a14 m c := (hostOps4_main_arg14 (W11 m ρ c)).trans (at11_main_arg14 m ρ c)
theorem at12_main_arg15 : W12 m ρ c (Proc.devRef .tc main_arg15) = a15 m c := (hostOps4_main_arg15 (W11 m ρ c)).trans (at11_main_arg15 m ρ c)
theorem at12_main_v10 : W12 m ρ c (Proc.devRef .tc main_v10) = sOut m c := (hostOps4_main_v10 (W11 m ρ c)).trans (at11_main_v10 m ρ c)
theorem at12_main_v12 : W12 m ρ c (Proc.devRef .tc main_v12) = sIn m c := (hostOps4_main_v12 (W11 m ρ c)).trans (at11_main_v12 m ρ c)
theorem at12_main_v13 : W12 m ρ c (Proc.devRef .tc main_v13) = resid m c := (hostOps4_main_v13 (W11 m ρ c)).trans (at11_main_v13 m ρ c)

/-! ## After region 4 -/

theorem at13_main_v56 : W13 m ρ c (Proc.devRef .tc main_v56) = hid4 m c := by
  refine (W13_arr m ρ c 5).trans ((final4 (V12 m ρ) c).trans ?_)
  rw [show V12 m ρ c main_v55 = _ from at12_main_v55 m ρ c,
    show V12 m ρ c main_v12 = _ from at12_main_v12 m ρ c,
    show V12 m ρ c main_arg9 = _ from at12_main_arg9 m ρ c,
    show V12 m ρ c main_v10 = _ from at12_main_v10 m ρ c,
    show V12 m ρ c main_arg10 = _ from at12_main_arg10 m ρ c]
theorem at13_main_arg0 : W13 m ρ c (Proc.devRef .tc main_arg0) = a0 m c := (W13_of_ne m ρ c main_arg0 (by decide)).trans (at12_main_arg0 m ρ c)
theorem at13_main_arg1 : W13 m ρ c (Proc.devRef .tc main_arg1) = a1 m c := (W13_of_ne m ρ c main_arg1 (by decide)).trans (at12_main_arg1 m ρ c)
theorem at13_main_arg3 : W13 m ρ c (Proc.devRef .tc main_arg3) = a3 m c := (W13_of_ne m ρ c main_arg3 (by decide)).trans (at12_main_arg3 m ρ c)
theorem at13_main_arg11 : W13 m ρ c (Proc.devRef .tc main_arg11) = a11 m c := (W13_of_ne m ρ c main_arg11 (by decide)).trans (at12_main_arg11 m ρ c)
theorem at13_main_arg14 : W13 m ρ c (Proc.devRef .tc main_arg14) = a14 m c := (W13_of_ne m ρ c main_arg14 (by decide)).trans (at12_main_arg14 m ρ c)
theorem at13_main_arg15 : W13 m ρ c (Proc.devRef .tc main_arg15) = a15 m c := (W13_of_ne m ρ c main_arg15 (by decide)).trans (at12_main_arg15 m ρ c)
theorem at13_main_v12 : W13 m ρ c (Proc.devRef .tc main_v12) = sIn m c :=
  ((W13_arr m ρ c 1).trans (((dat4 (V12 m ρ) c).arrAt_in 1 rfl _).trans (A_eq4 (V12 m ρ) c 1))).trans (at12_main_v12 m ρ c)
theorem at13_main_v13 : W13 m ρ c (Proc.devRef .tc main_v13) = resid m c := (W13_of_ne m ρ c main_v13 (by decide)).trans (at12_main_v13 m ρ c)

/-! ## After the stretch `hostOps5` -/

theorem at14_main_v69 : W14 m ρ c (Proc.devRef .tc main_v69) = agg4 m c := by
  refine (hostOps5_agg (W13 m ρ c)).trans ?_
  rw [at13_main_v56 m ρ c, at13_main_arg0 m ρ c, at13_main_arg1 m ρ c, at13_main_arg3 m ρ c]
theorem at14_main_arg11 : W14 m ρ c (Proc.devRef .tc main_arg11) = a11 m c := (hostOps5_main_arg11 (W13 m ρ c)).trans (at13_main_arg11 m ρ c)
theorem at14_main_arg14 : W14 m ρ c (Proc.devRef .tc main_arg14) = a14 m c := (hostOps5_main_arg14 (W13 m ρ c)).trans (at13_main_arg14 m ρ c)
theorem at14_main_arg15 : W14 m ρ c (Proc.devRef .tc main_arg15) = a15 m c := (hostOps5_main_arg15 (W13 m ρ c)).trans (at13_main_arg15 m ρ c)
theorem at14_main_v12 : W14 m ρ c (Proc.devRef .tc main_v12) = sIn m c := (hostOps5_main_v12 (W13 m ρ c)).trans (at13_main_v12 m ρ c)
theorem at14_main_v13 : W14 m ρ c (Proc.devRef .tc main_v13) = resid m c := (hostOps5_main_v13 (W13 m ρ c)).trans (at13_main_v13 m ρ c)

/-! ## After region 5 -/

theorem at15_main_v70 : W15 m ρ c (Proc.devRef .tc main_v70) = hidden m c := by
  refine (W15_arr m ρ c 4).trans ((final5 (V14 m ρ) c).trans ?_)
  rw [show V14 m ρ c main_v69 = _ from at14_main_v69 m ρ c,
    show V14 m ρ c main_v12 = _ from at14_main_v12 m ρ c,
    show V14 m ρ c main_arg11 = _ from at14_main_arg11 m ρ c,
    show V14 m ρ c main_v13 = _ from at14_main_v13 m ρ c]
theorem at15_main_arg14 : W15 m ρ c (Proc.devRef .tc main_arg14) = a14 m c := (W15_of_ne m ρ c main_arg14 (by decide)).trans (at14_main_arg14 m ρ c)
theorem at15_main_arg15 : W15 m ρ c (Proc.devRef .tc main_arg15) = a15 m c := (W15_of_ne m ρ c main_arg15 (by decide)).trans (at14_main_arg15 m ρ c)

/-! ## After region 6 -/

theorem at16_main_v71 : W16 m ρ c (Proc.devRef .tc main_v71) = logits m c := by
  refine (W16_arr m ρ c 3).trans ((final6 (V15 m ρ) c).trans ?_)
  rw [show V15 m ρ c main_v70 = _ from at15_main_v70 m ρ c,
    show V15 m ρ c main_arg14 = _ from at15_main_arg14 m ρ c,
    show V15 m ρ c main_arg15 = _ from at15_main_arg15 m ρ c]

/-! ## The result -/

/-- The result buffer ends at the network of the sixteen argument arrays. -/
theorem value : W16 m ρ c (Proc.devRef .tc main_v71)
    = Cert.Spec.net (a0 m c) (a1 m c) (a2 m c) (a3 m c) (a4 m c) (a5 m c) (a6 m c) (a7 m c) (a8 m c) (a9 m c) (a10 m c)
        (a11 m c) (a12 m c) (a13 m c) (a14 m c) (a15 m c) :=
  at16_main_v71 m ρ c

end Cert.KernelIdeal.Whole

end
-- ==== Proof.lean ====
/-
  The tiled graph-convolution network against its plain reference, over the extended reals.

  Both programs compute the same network (Proof/Spec.lean): degrees clipped at one and their inverse square roots,
  four graph convolutions `((x · s_out) W)` gathered along `src`, weighted, summed into `dst`, scaled by `s_in` and
  shifted by a bias, with `max (·, 0)` between them, a residual branch joined before the last `max`, and a projection to
  sixteen classes.  The tiled program runs every dense stage ten row tiles at a time, with each product into a zero
  accumulator; at the ideal values a tile of a stage is the stage's whole-array function restricted to the tile's rows
  (a product's entry is a sum over the 128 shared coordinates of entries of that row alone), and the tiles cover the
  rows, so stage by stage the two programs agree exactly; the sparse stage is the same host computation in both.  No
  law beyond reading each operation at an index is used, so the precondition is never opened.
-/
import proofs.«156565_j45311904973176_1_alg».proof.Defs
import proofs.«156565_j45311904973176_1_alg».proof.Proof.Gen.Kernel
import proofs.«156565_j45311904973176_1_alg».proof.Proof.Gen.Kernel.Skeleton
import proofs.«156565_j45311904973176_1_alg».proof.Proof.Gen.Kernel.Launch
import proofs.«156565_j45311904973176_1_alg».proof.Proof.Gen.Kernel.Points
import proofs.«156565_j45311904973176_1_alg».proof.Proof.Gen.Kernel.Frame
import proofs.«156565_j45311904973176_1_alg».proof.Proof.Gen.KernelIdeal
import proofs.«156565_j45311904973176_1_alg».proof.Proof.Gen.KernelIdeal.Skeleton
import proofs.«156565_j45311904973176_1_alg».proof.Proof.Gen.KernelIdeal.Launch
import proofs.«156565_j45311904973176_1_alg».proof.Proof.Gen.KernelIdeal.Points
import proofs.«156565_j45311904973176_1_alg».proof.Proof.Gen.KernelIdeal.Frame
import proofs.«156565_j45311904973176_1_alg».proof.Proof.Gen.ReferenceIdeal
import proofs.«156565_j45311904973176_1_alg».proof.Proof.Gen.Pre_finite_inputs
import proofs.«156565_j45311904973176_1_alg».proof.Proof.Gen.ReferenceIdeal.Run
import proofs.«156565_j45311904973176_1_alg».proof.Proof.KernelRun
import proofs.«156565_j45311904973176_1_alg».proof.Proof.Chain
import Idealize.ShloMosaic.Adequacy
import Idealize.ShloMosaic.Init

noncomputable section

namespace Cert.Proof

open Idealize.ShloMosaic Idealize.SL.Sem

/-- The reference's composed term is the network of its sixteen argument arrays. -/
theorem reference_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v115 (F := Ideal) m' c
      = Cert.Spec.net (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10))
          (m' ((c.tc : Thread Cert.ReferenceIdeal.nD Cert.ReferenceIdeal.τ).loc Cert.ReferenceIdeal.main_arg11))
          (m' ((c.tc : Thread Cert.ReferenceIdeal.nD Cert.ReferenceIdeal.τ).loc Cert.ReferenceIdeal.main_arg12))
          (m' ((c.tc : Thread Cert.ReferenceIdeal.nD Cert.ReferenceIdeal.τ).loc Cert.ReferenceIdeal.main_arg13))
          (m' ((c.tc : Thread Cert.ReferenceIdeal.nD Cert.ReferenceIdeal.τ).loc Cert.ReferenceIdeal.main_arg14))
          (m' ((c.tc : Thread Cert.ReferenceIdeal.nD Cert.ReferenceIdeal.τ).loc Cert.ReferenceIdeal.main_arg15)) := by
  unfold Cert.ReferenceIdeal.Value.res_main_v115
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized program is the printed text read at the ideal values. -/
theorem preserves : Cert.preserves_Kernel_KernelIdeal := trivial

/-- Both runs end with the result at the network of the (agreeing) argument arrays. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Whole.value m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.Value.run (F := Ideal) m' ρ')
    rw [reference_eq]
    obtain ⟨g0, g1, g2, g3, g4, g5, g6, g7, g8, g9, g10, g11, g12, g13, g14, g15⟩ := hagree c
    rw [g0, g1, g2, g3, g4, g5, g6, g7, g8, g9, g10, g11, g12, g13, g14, g15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
